-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S65536x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S65536x1024 : Shape := ⟨2, ![65536, 1024]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S256x16x64 : Shape := ⟨3, ![256, 16, 64]⟩
abbrev S256x64 : Shape := ⟨2, ![256, 64]⟩
abbrev S256x1x64 : Shape := ⟨3, ![256, 1, 64]⟩
abbrev S256x16 : Shape := ⟨2, ![256, 16]⟩
abbrev S256 : Shape := ⟨1, ![256]⟩
abbrev S256x1 : Shape := ⟨2, ![256, 1]⟩
abbrev S256x16x1 : Shape := ⟨3, ![256, 16, 1]⟩

abbrev nBuf : Space → Nat
  | .hbm => 18
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x1024_S1024x1024_1_0 : S1024x1024.Transposes [1, 0] S1024x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S256x16x64 : S256x1024.ShapeCasts S256x16x64
  slices_S256x1024_o0_0_S256x64 : S256x1024.Slices ![0, 0] S256x64
  shapeCasts_S256x64_S256x1x64 : S256x64.ShapeCasts S256x1x64
  broadcasts_S256x1x64_S256x16x64 : S256x1x64.Broadcasts S256x16x64
  reduces_S256x16x64_S256x16 : S256x16x64.Reduces [2] S256x16
  reduces_S256x16_S256 : S256x16.Reduces [1] S256
  shapeCasts_S256_S256x1 : S256.ShapeCasts S256x1
  broadcasts_S256x1_S256x16 : S256x1.Broadcasts S256x16
  shapeCasts_S256x16_S256x16x1 : S256x16.ShapeCasts S256x16x1
  broadcasts_S256x16x1_S256x16x64 : S256x16x1.Broadcasts S256x16x64
  reduces_S256x16x64_S256x64 : S256x16x64.Reduces [1] S256x64
  inb_S256x1024_S256x64_0_0 : ∀ a, (![0, 0] : Fin 2 → Nat) a + S256x64.size a ≤ S256x1024.size a
  h_S256x64 : 0 < S256x64.numel
  shapeCasts_S256x64_S256x64 : S256x64.ShapeCasts S256x64
  slices_S256x1024_o0_64_S256x64 : S256x1024.Slices ![0, 64] S256x64
  inb_S256x1024_S256x64_0_64 : ∀ a, (![0, 64] : Fin 2 → Nat) a + S256x64.size a ≤ S256x1024.size a
  slices_S256x1024_o0_128_S256x64 : S256x1024.Slices ![0, 128] S256x64
  inb_S256x1024_S256x64_0_128 : ∀ a, (![0, 128] : Fin 2 → Nat) a + S256x64.size a ≤ S256x1024.size a
  slices_S256x1024_o0_192_S256x64 : S256x1024.Slices ![0, 192] S256x64
  inb_S256x1024_S256x64_0_192 : ∀ a, (![0, 192] : Fin 2 → Nat) a + S256x64.size a ≤ S256x1024.size a
  slices_S256x1024_o0_256_S256x64 : S256x1024.Slices ![0, 256] S256x64
  inb_S256x1024_S256x64_0_256 : ∀ a, (![0, 256] : Fin 2 → Nat) a + S256x64.size a ≤ S256x1024.size a
  slices_S256x1024_o0_320_S256x64 : S256x1024.Slices ![0, 320] S256x64
  inb_S256x1024_S256x64_0_320 : ∀ a, (![0, 320] : Fin 2 → Nat) a + S256x64.size a ≤ S256x1024.size a
  slices_S256x1024_o0_384_S256x64 : S256x1024.Slices ![0, 384] S256x64
  inb_S256x1024_S256x64_0_384 : ∀ a, (![0, 384] : Fin 2 → Nat) a + S256x64.size a ≤ S256x1024.size a
  slices_S256x1024_o0_448_S256x64 : S256x1024.Slices ![0, 448] S256x64
  inb_S256x1024_S256x64_0_448 : ∀ a, (![0, 448] : Fin 2 → Nat) a + S256x64.size a ≤ S256x1024.size a
  slices_S256x1024_o0_512_S256x64 : S256x1024.Slices ![0, 512] S256x64
  inb_S256x1024_S256x64_0_512 : ∀ a, (![0, 512] : Fin 2 → Nat) a + S256x64.size a ≤ S256x1024.size a
  slices_S256x1024_o0_576_S256x64 : S256x1024.Slices ![0, 576] S256x64
  inb_S256x1024_S256x64_0_576 : ∀ a, (![0, 576] : Fin 2 → Nat) a + S256x64.size a ≤ S256x1024.size a
  slices_S256x1024_o0_640_S256x64 : S256x1024.Slices ![0, 640] S256x64
  inb_S256x1024_S256x64_0_640 : ∀ a, (![0, 640] : Fin 2 → Nat) a + S256x64.size a ≤ S256x1024.size a
  slices_S256x1024_o0_704_S256x64 : S256x1024.Slices ![0, 704] S256x64
  inb_S256x1024_S256x64_0_704 : ∀ a, (![0, 704] : Fin 2 → Nat) a + S256x64.size a ≤ S256x1024.size a
  slices_S256x1024_o0_768_S256x64 : S256x1024.Slices ![0, 768] S256x64
  inb_S256x1024_S256x64_0_768 : ∀ a, (![0, 768] : Fin 2 → Nat) a + S256x64.size a ≤ S256x1024.size a
  slices_S256x1024_o0_832_S256x64 : S256x1024.Slices ![0, 832] S256x64
  inb_S256x1024_S256x64_0_832 : ∀ a, (![0, 832] : Fin 2 → Nat) a + S256x64.size a ≤ S256x1024.size a
  slices_S256x1024_o0_896_S256x64 : S256x1024.Slices ![0, 896] S256x64
  inb_S256x1024_S256x64_0_896 : ∀ a, (![0, 896] : Fin 2 → Nat) a + S256x64.size a ≤ S256x1024.size a
  slices_S256x1024_o0_960_S256x64 : S256x1024.Slices ![0, 960] S256x64
  inb_S256x1024_S256x64_0_960 : ∀ a, (![0, 960] : Fin 2 → Nat) a + S256x64.size a ≤ S256x1024.size a
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S65536x1024.size a
  hwx0_0 : ∀ i : grid0.Coords, EltTy.bits .f32 = 32 ∨ (Rect.block (s := S65536x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S65536x1024.size a
  hwx0_9 : ∀ i : grid0.Coords, EltTy.bits .f32 = 32 ∨ (Rect.block (s := S65536x1024) S256x1024.size (cc0_transform_9 i) (hinb0_9 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S65536x16x64 : Shape := ⟨3, ![65536, 16, 64]⟩
abbrev S65536x16x16 : Shape := ⟨3, ![65536, 16, 16]⟩
abbrev S_ : Shape := ⟨0, ![]⟩
abbrev S65536x16 : Shape := ⟨2, ![65536, 16]⟩
abbrev S65536x16x1 : Shape := ⟨3, ![65536, 16, 1]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S65536x1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S65536x16x64, .f32⟩
  | .hbm, ⟨15, _⟩ => ⟨S1024x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x16x64, .f32⟩
  | .hbm, ⟨21, _⟩ => ⟨S1024x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S65536x16x64, .f32⟩
  | .hbm, ⟨27, _⟩ => ⟨S65536x16x16, .f32⟩
  | .hbm, ⟨28, _⟩ => ⟨S_, .f32⟩
  | .hbm, ⟨29, _⟩ => ⟨S65536x16x16, .f32⟩
  | .hbm, ⟨30, _⟩ => ⟨S65536x16x16, .f32⟩
  | .hbm, ⟨31, _⟩ => ⟨S_, .f32⟩
  | .hbm, ⟨32, _⟩ => ⟨S65536x16, .f32⟩
  | .hbm, ⟨33, _⟩ => ⟨S_, .f32⟩
  | .hbm, ⟨34, _⟩ => ⟨S65536x16, .f32⟩
  | .hbm, ⟨35, _⟩ => ⟨S65536x16, .f32⟩
  | .hbm, ⟨36, _⟩ => ⟨S65536x16x1, .f32⟩
  | .hbm, ⟨37, _⟩ => ⟨S65536x16x16, .f32⟩
  | .hbm, ⟨38, _⟩ => ⟨S65536x16x16, .f32⟩
  | .hbm, ⟨39, _⟩ => ⟨S65536x16x16, .f32⟩
  | .hbm, ⟨40, _⟩ => ⟨S_, .f32⟩
  | .hbm, ⟨41, _⟩ => ⟨S65536x16, .f32⟩
  | .hbm, ⟨42, _⟩ => ⟨S65536x16x1, .f32⟩
  | .hbm, ⟨43, _⟩ => ⟨S65536x16x16, .f32⟩
  | .hbm, ⟨44, _⟩ => ⟨S65536x16x16, .f32⟩
  | .hbm, ⟨45, _⟩ => ⟨S65536x16x64, .f32⟩
  | .hbm, ⟨46, _⟩ => ⟨S65536x1024, .f32⟩
  | .hbm, ⟨47, _⟩ => ⟨S1024x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  shapeCasts_S65536x1024_S65536x16x64 : S65536x1024.ShapeCasts S65536x16x64
  bcast_S_S65536x16x16 : S_.BroadcastsInDim S65536x16x16 (![] : Fin 0 → Fin S65536x16x16.rank)
  reducesTo_S65536x16x16_S65536x16_d2 : S65536x16x16.ReducesTo [2] S65536x16
  h_S_ : 0 < S_.numel
  bcast_S_S65536x16 : S_.BroadcastsInDim S65536x16 (![] : Fin 0 → Fin S65536x16.rank)
  bcast_S65536x16_S65536x16x1_0_1 : S65536x16.BroadcastsInDim S65536x16x1 (![0, 1] : Fin 2 → Fin S65536x16x1.rank)
  bcast_S65536x16x1_S65536x16x16_0_1_2 : S65536x16x1.BroadcastsInDim S65536x16x16 (![0, 1, 2] : Fin 3 → Fin S65536x16x16.rank)
  shapeCasts_S65536x16x64_S65536x1024 : S65536x16x64.ShapeCasts S65536x1024
  dot_S65536x1024_S1024x1024_S65536x1024_1_0_0_1_n_n_wf : DotDims.WF S65536x1024 S1024x1024 S65536x1024 [1] [0] [0] [1] [] []
  dot_S65536x16x64_S65536x16x64_S65536x16x16_2_2_1_1_0_0_wf : DotDims.WF S65536x16x64 S65536x16x64 S65536x16x16 [2] [2] [1] [1] [0] [0]
  dot_S65536x16x16_S65536x16x64_S65536x16x64_2_1_1_2_0_0_wf : DotDims.WF S65536x16x16 S65536x16x64 S65536x16x64 [2] [1] [1] [2] [0] [0]

variable [Facts₀]

def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x16x64_S65536x16x64_S65536x16x16_2_2_1_1_0_0 : DotDims S65536x16x64 S65536x16x64 S65536x16x16 where
  lhsContracting := [2]
  rhsContracting := [2]
  lhsNonContracting := [1]
  rhsNonContracting := [1]
  lhsBatch := [0]
  rhsBatch := [0]
  wf := dot_S65536x16x64_S65536x16x64_S65536x16x16_2_2_1_1_0_0_wf
def dot_S65536x16x16_S65536x16x64_S65536x16x64_2_1_1_2_0_0 : DotDims S65536x16x16 S65536x16x64 S65536x16x64 where
  lhsContracting := [2]
  rhsContracting := [1]
  lhsNonContracting := [1]
  rhsNonContracting := [2]
  lhsBatch := [0]
  rhsBatch := [0]
  wf := dot_S65536x16x16_S65536x16x64_S65536x16x64_2_1_1_2_0_0_wf

class Facts : Prop extends Facts₀ where

variable [Facts]
-- ==== Proof.Spec.lean ====
/-
  The mathematics of one token, over the extended reals. A token's row h of 1024 numbers is projected to a query,
  a key and a value row of 1024 numbers each; each row is read as 16 heads of 64 numbers. For a query head a and a
  key head b the score is the dot product of the two heads, scaled by 1/8. The 16 scores of a query head go through
  a softmax, and the attended head is the softmax-weighted sum of the 16 value heads. The 16 attended heads side by
  side are projected once more. The scale may be applied to the query before the dot product or to the dot product
  after it: the two agree on every extended real, because a product with a nonnegative real distributes over a sum
  even when terms are infinite.
-/
import Idealize.ShloMosaic.PureOps.Ideal
import Idealize.ShloMosaic.PureOps.Ideal.Laws

noncomputable section

namespace Cert.Spec

open Idealize.ShloMosaic

/-! ## The two literals -/

/-- The word of `0.125` denotes the real `1/8`. -/
theorem ofBits_eighth : Ideal.ofBits .f32 0x3E000000#32 = ((1 / 8 : ℝ) : EReal) := by
  simp [Ideal.ofBits, Ideal.ieee, -EReal.coe_mul]; norm_num

/-- The word of `8.0` denotes the real `8`. -/
theorem ofBits_eight : Ideal.ofBits .f32 0x41000000#32 = ((8 : ℝ) : EReal) := by
  simp [Ideal.ofBits, Ideal.ieee, -EReal.coe_mul]; norm_num

/-! ## A nonnegative real factor leaves a sum -/

/-- The product with a nonnegative real, taken term by term, is the product of the sum: on the extended reals too,
    whatever the terms. -/
theorem sum_mul_coe {ι : Type} (s : Finset ι) (c : ℝ) (hc : 0 ≤ c) (f : ι → EReal) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The scale law: a dot product whose left factors were each multiplied by `1/8` is the dot product divided by `8`. -/
theorem scale_law {n : ℕ} (x y : Fin n → EReal) :
    ∑ d : Fin n, (x d * Ideal.ofBits .f32 0x3E000000#32) * y d
      = Ideal.div (∑ d : Fin n, x d * y d) (Ideal.ofBits .f32 0x41000000#32) := by
  rw [ofBits_eighth, ofBits_eight, Ideal.div_coe (by norm_num : (8 : ℝ) ≠ 0), ← sum_mul_coe _ _ (by norm_num)]
  exact Finset.sum_congr rfl fun d _ => mul_right_comm _ _ _

/-! ## Heads -/

/-- Column `64 a + d`: entry `d` of head `a`. -/
def col (a : Fin 16) (d : Fin 64) : Fin 1024 := ⟨a.val * 64 + d.val, by have := a.isLt; have := d.isLt; omega⟩
/-- The head a column belongs to, -/
def hd (j : Fin 1024) : Fin 16 := ⟨j.val / 64, by have := j.isLt; omega⟩
/-- and its place inside that head. -/
def lo (j : Fin 1024) : Fin 64 := ⟨j.val % 64, Nat.mod_lt _ (by decide)⟩

theorem col_hd_lo (j : Fin 1024) : col (hd j) (lo j) = j := Fin.ext (by show j.val / 64 * 64 + j.val % 64 = j.val; omega)
theorem hd_col (a : Fin 16) (d : Fin 64) : hd (col a d) = a :=
  Fin.ext (by show (a.val * 64 + d.val) / 64 = a.val; have := d.isLt; omega)
theorem lo_col (a : Fin 16) (d : Fin 64) : lo (col a d) = d :=
  Fin.ext (by show (a.val * 64 + d.val) % 64 = d.val; have := d.isLt; omega)

/-! ## The token's function -/

/-- The softmax of 16 scores `s`, as weights on 16 values `v`, summed: the maximum is taken from `-∞`, each score
    less the maximum is exponentiated, and each exponential is divided by their sum. -/
def soft (s v : Fin 16 → EReal) : EReal :=
  ∑ b : Fin 16,
    Ideal.div
      (Ideal.exp (s b - max (Ideal.ofBits .f32 0xFF800000#32) ((Finset.univ : Finset (Fin 16)).fold max (Ideal.ofBits .f32 0xFF800000#32) s)))
      (∑ b' : Fin 16,
        Ideal.exp (s b' - max (Ideal.ofBits .f32 0xFF800000#32) ((Finset.univ : Finset (Fin 16)).fold max (Ideal.ofBits .f32 0xFF800000#32) s)))
      * v b

/-- A projection: row `h` times the matrix `W` (input index first), plus the bias. -/
def proj (h : Fin 1024 → EReal) (W : Fin 1024 → Fin 1024 → EReal) (b : Fin 1024 → EReal) (j : Fin 1024) : EReal :=
  (∑ i : Fin 1024, h i * W i j) + b j

/-- The score of query head `a` against key head `b`, the `1/8` applied to the query's entries, -/
def scoreK (q k : Fin 1024 → EReal) (a b : Fin 16) : EReal :=
  ∑ d : Fin 64, (q (col a d) * Ideal.ofBits .f32 0x3E000000#32) * k (col b d)

/-- or to the dot product, as a division by `8`. -/
def scoreR (q k : Fin 1024 → EReal) (a b : Fin 16) : EReal :=
  Ideal.div (∑ d : Fin 64, q (col a d) * k (col b d)) (Ideal.ofBits .f32 0x41000000#32)

theorem scoreK_eq_scoreR : scoreK = scoreR := by
  funext q k a b
  exact scale_law (fun d => q (col a d)) (fun d => k (col b d))

/-- Entry `j` of the attended row: the softmax of the scores of `j`'s head, weighing the value heads at `j`'s place. -/
def att (sc : Fin 16 → Fin 16 → EReal) (v : Fin 1024 → EReal) (j : Fin 1024) : EReal :=
  soft (sc (hd j)) (fun b => v (col b (lo j)))

/-- The whole token, with the scores of the first kind, -/
def tokK (h : Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) (e : Fin 1024) : EReal :=
  proj (att (scoreK (proj h Wq bq) (proj h Wk bk)) (proj h Wv bv)) Wo bo e

/-- and of the second. -/
def tokR (h : Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) (e : Fin 1024) : EReal :=
  proj (att (scoreR (proj h Wq bq) (proj h Wk bk)) (proj h Wv bv)) Wo bo e

theorem tokK_eq_tokR : tokK = tokR := by
  unfold tokK tokR; rw [scoreK_eq_scoreR]

end Cert.Spec

end
-- ==== Proof.KLayout.lean ====
/-
  The kernel's layout steps and its matrix product, read at an index written by coordinates: a 64-column slab of a
  256 x 1024 block, the block's rows cut into 16 heads of 64, a bias row spread over the 256 rows, and the product of
  a 256 x 1024 block with a 1024 x 1024 matrix into a zero accumulator as the sum over the shared index.
-/
import proofs.«164140_j43044162240543_2_alg».proof.Proof.Gen.KernelIdeal
import proofs.«164140_j43044162240543_2_alg».proof.Proof.Spec
import Idealize.ShloMosaic.Lib.Pipeline.Value
import Idealize.ShloMosaic.Lib.ValueIdx
import Idealize.ShloMosaic.PureOps.Ideal.Laws

noncomputable section

namespace Cert.KLayout

open Idealize.ShloMosaic Idealize.ShloMosaic.ValueIdx Cert.KernelIdeal Cert.KernelIdeal.Gen Cert.Spec

variable {α : Type}

/-- The slab of 64 columns starting at column `off`, at `(r, d)`: the block at `(r, off + d)`. -/
theorem slab_apply (off : ℕ) (hoff : off + 64 ≤ 1024) (x : S256x1024.Idx → α) (hs : S256x1024.Slices ![0, off] S256x64)
    (r : Fin 256) (d : Fin 64) :
    extractStridedSlice S256x64 ![0, off] x hs (ix2 r d)
      = x (ix2 r (⟨off + d.val, by have := d.isLt; omega⟩ : Fin 1024)) :=
  extractStridedSlice_apply _ x hs _ _ fun a => by
    match a with
    | ⟨0, _⟩ => show r.val = 0 + r.val; omega
    | ⟨1, _⟩ => rfl

/-- A row of 1024 read as 16 heads of 64, at `(r, b, d)`: the row's column `64 b + d`. -/
theorem heads_apply (x : S256x1024.Idx → α) (h : S256x1024.ShapeCasts S256x16x64) (r : Fin 256) (b : Fin 16) (d : Fin 64) :
    shapeCast S256x16x64 x h (ix3 r b d) = x (ix2 r (col b d)) :=
  shapeCast_apply x h _ _ (by
    rw [Shape.rowMajor_val_two, Shape.rowMajor_val_three]
    show r.val * 1024 + (b.val * 64 + d.val) = (r.val * 16 + b.val) * 64 + d.val
    omega)

/-- A bias of 1024 entries spread over the rows, at `(r, j)`: entry `j`. -/
theorem bias_apply (x : S1024.Idx → α) (h1 : S1024.ShapeCasts S1x1024) (h2 : S1x1024.Broadcasts S256x1024)
    (r : Fin 256) (j : Fin 1024) :
    broadcastTo S256x1024 (shapeCast S1x1024 x h1) h2 (ix2 r j) = x (ix1 j) := by
  refine (broadcastTo_apply _ h2 (ix2 r j) (ix2 (0 : Fin 1) j) fun a => ?_).trans ?_
  · match a with
    | ⟨0, _⟩ => rfl
    | ⟨1, _⟩ => show j.val = if (1024 : ℕ) = 1 then 0 else j.val; rw [if_neg (by decide)]
  · exact shapeCast_apply x h1 _ _ (by
      rw [Shape.rowMajor_val_one, Shape.rowMajor_val_two]
      show j.val = 0 * 1024 + j.val
      omega)

/-- The product of a 256 x 1024 block with a 1024 x 1024 matrix into the zero accumulator, at `(r, j)`: the sum over
    `i` of the block at `(r, i)` times the matrix at `(i, j)`. -/
theorem prod_apply {φ₁ φ₂ : FTy} (lhs : FVec Ideal S256x1024 φ₁) (rhs : FVec Ideal S1024x1024 φ₂) (r : Fin 256) (j : Fin 1024) :
    matmul dot_S256x1024_S1024x1024_S256x1024_1_0_0_1_n_n none lhs rhs (constant S256x1024 .f32 0x00000000#32) (ix2 r j)
      = ∑ i : Fin 1024, lhs (ix2 r i) * rhs (ix2 i j) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have l0 : ∀ qq : dot_S256x1024_S1024x1024_S256x1024_1_0_0_1_n_n.contr.Idx, (dot_S256x1024_S1024x1024_S256x1024_1_0_0_1_n_n.lhsIdx (ix2 r j) qq 0).val = r.val := fun qq => by
    unfold DotDims.lhsIdx
    rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
    rfl
  have l1 : ∀ qq : dot_S256x1024_S1024x1024_S256x1024_1_0_0_1_n_n.contr.Idx, (dot_S256x1024_S1024x1024_S256x1024_1_0_0_1_n_n.lhsIdx (ix2 r j) qq 1).val = (qq ⟨0, by decide⟩).val := fun qq =>
    dot_S256x1024_S1024x1024_S256x1024_1_0_0_1_n_n.lhsIdx_val_of_single rfl (ix2 r j) qq
  have r0 : ∀ qq : dot_S256x1024_S1024x1024_S256x1024_1_0_0_1_n_n.contr.Idx, (dot_S256x1024_S1024x1024_S256x1024_1_0_0_1_n_n.rhsIdx (ix2 r j) qq 0).val = (qq ⟨0, by decide⟩).val := fun qq =>
    dot_S256x1024_S1024x1024_S256x1024_1_0_0_1_n_n.rhsIdx_val_of_single rfl (ix2 r j) qq
  have r1 : ∀ qq : dot_S256x1024_S1024x1024_S256x1024_1_0_0_1_n_n.contr.Idx, (dot_S256x1024_S1024x1024_S256x1024_1_0_0_1_n_n.rhsIdx (ix2 r j) qq 1).val = j.val := fun qq => by
    unfold DotDims.rhsIdx
    rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
    rfl
  have el : dot_S256x1024_S1024x1024_S256x1024_1_0_0_1_n_n.lhsIdx (ix2 r j) ((contrEquiv1 dot_S256x1024_S1024x1024_S256x1024_1_0_0_1_n_n 1024 rfl rfl).symm k) = ix2 r k := funext fun a => Fin.ext (by
    match a with
    | ⟨0, _⟩ => exact l0 _
    | ⟨1, _⟩ => exact (l1 _).trans hk)
  have er : dot_S256x1024_S1024x1024_S256x1024_1_0_0_1_n_n.rhsIdx (ix2 r j) ((contrEquiv1 dot_S256x1024_S1024x1024_S256x1024_1_0_0_1_n_n 1024 rfl rfl).symm k) = ix2 k j := funext fun a => Fin.ext (by
    match a with
    | ⟨0, _⟩ => exact (r0 _).trans hk
    | ⟨1, _⟩ => exact r1 _)
  rw [el, er]

end Cert.KLayout

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.KHead.lean ====
/-
  One query head against the 16 key and value heads, for the 256 tokens of a block at once. From the scaled queries
  (256 x 1024), the keys and the values (each 256 x 16 x 64): the 16 scores of the query head at column `off`, their
  maximum from -∞, the exponentials of the scores less the maximum, the exponentials divided by their sum, and the
  sum of the value heads so weighed. Read at token `r` and entry `d` this is the softmax-weighted sum of the token's
  function (`Spec.soft`).
-/
import proofs.«164140_j43044162240543_2_alg».proof.Proof.KLayout
import proofs.«164140_j43044162240543_2_alg».proof.Proof.LibColumn
import proofs.«164140_j43044162240543_2_alg».proof.Proof.LibKeepdims

noncomputable section

namespace Cert.KHead

open Idealize.ShloMosaic Idealize.ShloMosaic.ValueIdx Cert.KernelIdeal Cert.KernelIdeal.Gen Cert.Spec

section Defs
variable {F : FTy → Type} [FloatOps F]

/-- The scores of the query head at column `off` against the 16 key heads. -/
def scoresV (off : ℕ) (hs : S256x1024.Slices ![0, off] S256x64) (v27 : FVec F S256x1024 .f32) (v28 : FVec F S256x16x64 .f32) :
    FVec F S256x16 .f32 :=
  multiReduction .add [2] S256x16
    (mulf (broadcastTo S256x16x64 (shapeCast S256x1x64 (extractStridedSlice S256x64 ![0, off] v27 hs) shapeCasts_S256x64_S256x1x64)
      broadcasts_S256x1x64_S256x16x64) v28)
    0x00000000#32 reduces_S256x16x64_S256x16 (.inl rfl) rfl

/-- Their maximum, from -∞. -/
def rowMaxV (s : FVec F S256x16 .f32) : FVec F S256 .f32 :=
  maximumf (broadcast S256 (Scalar.ofBits .f32 0xFF800000#32))
    (multiReduction .maximumf [1] S256 s 0xFF800000#32 reduces_S256x16_S256 (.inl rfl) rfl)

/-- The exponentials of the scores less the maximum. -/
def expV (s : FVec F S256x16 .f32) (mx : FVec F S256 .f32) : FVec F S256x16 .f32 :=
  exp (subf s (broadcastTo S256x16 (shapeCast S256x1 mx shapeCasts_S256_S256x1) broadcasts_S256x1_S256x16))

/-- The exponentials divided by their sum. -/
def probV (e : FVec F S256x16 .f32) : FVec F S256x16 .f32 :=
  divf e (broadcastTo S256x16
    (shapeCast S256x1 (multiReduction .add [1] S256 e 0x00000000#32 reduces_S256x16_S256 (.inl rfl) rfl) shapeCasts_S256_S256x1)
    broadcasts_S256x1_S256x16)

/-- The value heads weighed and summed. -/
def attendV (p : FVec F S256x16 .f32) (v29 : FVec F S256x16x64 .f32) : FVec F S256x64 .f32 :=
  shapeCast S256x64
    (multiReduction .add [1] S256x64
      (mulf (broadcastTo S256x16x64 (shapeCast S256x16x1 p shapeCasts_S256x16_S256x16x1) broadcasts_S256x16x1_S256x16x64) v29)
      0x00000000#32 reduces_S256x16x64_S256x64 (.inl rfl) rfl)
    shapeCasts_S256x64_S256x64

/-- The attended head of the query head at column `off`. -/
def headV (off : ℕ) (hs : S256x1024.Slices ![0, off] S256x64) (v27 : FVec F S256x1024 .f32) (v28 v29 : FVec F S256x16x64 .f32) :
    FVec F S256x64 .f32 :=
  attendV (probV (expV (scoresV off hs v27 v28) (rowMaxV (scoresV off hs v27 v28)))) v29

end Defs

/-! ## Read at an index, at the ideal values -/

theorem scoresV_apply (a : Fin 16) (off : ℕ) (hoff : off = a.val * 64) (hs : S256x1024.Slices ![0, off] S256x64)
    (v27 : FVec Ideal S256x1024 .f32) (v28 : FVec Ideal S256x16x64 .f32) (r : Fin 256) (b : Fin 16) :
    scoresV off hs v27 v28 (ix2 r b) = ∑ d : Fin 64, v27 (ix2 r (col a d)) * v28 (ix3 r b d) := by
  subst hoff
  unfold scoresV
  refine (Cert.LibKeepdims.sum_last3_apply _ _ _ _ _ r b).trans ?_
  refine Finset.sum_congr rfl fun d _ => ?_
  rw [mulf_apply, Cert.LibKeepdims.broadcastTo_a1c_abc_apply, Cert.LibKeepdims.shapeCast_ac_a1c_apply,
    Cert.KLayout.slab_apply (a.val * 64) (by have := a.isLt; omega)]
  rfl

theorem rowMaxV_apply (s : FVec Ideal S256x16 .f32) (r : Fin 256) :
    rowMaxV s (ix1 r)
      = max (Ideal.ofBits .f32 0xFF800000#32)
          ((Finset.univ : Finset (Fin 16)).fold max (Ideal.ofBits .f32 0xFF800000#32) (fun k : Fin 16 => s (ix2 r k))) := by
  unfold rowMaxV
  rw [maximumf_apply, broadcast_apply]
  exact congrArg (max _) (Cert.LibKeepdims.max_last2_apply _ _ _ _ _ r)

theorem expV_apply (s : FVec Ideal S256x16 .f32) (mx : FVec Ideal S256 .f32) (r : Fin 256) (b : Fin 16) :
    expV s mx (ix2 r b) = Ideal.exp (s (ix2 r b) - mx (ix1 r)) := by
  unfold expV
  rw [Cert.LibKeepdims.exp_apply, subf_apply, Cert.LibColumn.broadcastTo_a1_ab_apply, Cert.LibColumn.shapeCast_a_a1_apply]

theorem probV_apply (e : FVec Ideal S256x16 .f32) (r : Fin 256) (b : Fin 16) :
    probV e (ix2 r b) = Ideal.div (e (ix2 r b)) (∑ b' : Fin 16, e (ix2 r b')) := by
  unfold probV
  rw [divf_apply, Cert.LibColumn.broadcastTo_a1_ab_apply, Cert.LibColumn.shapeCast_a_a1_apply]
  exact congrArg (Ideal.div _) (Cert.LibKeepdims.sum_last2_apply _ _ _ _ _ r)

theorem attendV_apply (p : FVec Ideal S256x16 .f32) (v29 : FVec Ideal S256x16x64 .f32) (r : Fin 256) (d : Fin 64) :
    attendV p v29 (ix2 r d) = ∑ b : Fin 16, p (ix2 r b) * v29 (ix3 r b d) := by
  unfold attendV
  rw [shapeCast_self]
  refine (Cert.LibKeepdims.sum_mid3_apply _ _ _ _ _ r d).trans ?_
  refine Finset.sum_congr rfl fun b _ => ?_
  rw [mulf_apply, Cert.LibKeepdims.broadcastTo_ab1_abc_apply, Cert.LibKeepdims.shapeCast_ab_ab1_apply]

/-- The attended head of query head `a`, at token `r` and entry `d`. -/
theorem headV_apply (a : Fin 16) (off : ℕ) (hoff : off = a.val * 64) (hs : S256x1024.Slices ![0, off] S256x64)
    (v27 : FVec Ideal S256x1024 .f32) (v28 v29 : FVec Ideal S256x16x64 .f32) (r : Fin 256) (d : Fin 64) :
    headV off hs v27 v28 v29 (ix2 r d)
      = soft (fun b => ∑ d' : Fin 64, v27 (ix2 r (col a d')) * v28 (ix3 r b d')) (fun b => v29 (ix3 r b d)) := by
  unfold headV soft
  rw [attendV_apply]
  simp only [probV_apply, expV_apply, rowMaxV_apply, scoresV_apply a off hoff hs]

end Cert.KHead

end
-- ==== Proof.KSlabs.lean ====
/-
  A 256 x 1024 buffer filled by 16 stores of 256 x 64 column slabs, slab `a` at columns `64 a … 64 a + 63`, and then
  loaded whole. If the payload of every slab is one function `G` of the buffer's index, read under the slab, then the
  buffer reads `G` everywhere: every column lies in exactly the slab of its head.
-/
import proofs.«164140_j43044162240543_2_alg».proof.Proof.Gen.KernelIdeal
import Idealize.ShloMosaic.Lib.Pipeline.Value
import Idealize.ShloMosaic.Lib.ValueIdx

set_option maxRecDepth 16384

noncomputable section

namespace Cert.KSlabs

open Idealize.ShloMosaic Idealize.ShloMosaic.ValueIdx Cert.KernelIdeal Cert.KernelIdeal.Gen

/-- A load of the whole buffer after the stores `L` reads what they leave, index by index. -/
theorem readCov_whole {sig : RefSig} {κ : Kind} {sp : Space} (v : View sig κ sp S256x1024 .f32)
    (L : List (View.Piece (Elt Ideal) S256x1024 .f32)) (inb : ∀ t, (![0, 0] : Fin 2 → ℕ) t + (![256, 1024] : Fin 2 → ℕ) t ≤ S256x1024.size t)
    (y : S256x1024.Idx) :
    v.readCov L (Rect.unit (s := S256x1024) ![0, 0] ![256, 1024] inb).toLoadRect y = View.canon L y := by
  rw [View.readCov_eq_canon']
  show View.canon L _ = View.canon L y
  refine congrArg (View.canon L) (funext fun t => Fin.ext ?_)
  match t with
  | ⟨0, _⟩ => show 0 + 1 * (y 0).val = (y 0).val; omega
  | ⟨1, _⟩ => show 0 + 1 * (y 1).val = (y 1).val; omega

/-- Sixteen column slabs, the last stored first in the list, each a block of one function `G`: their canon is `G`. -/
theorem slabs_canon (G : S256x1024.Idx → Elt Ideal .f32)
    (P0 : S256x64.Idx → Elt Ideal .f32) (inb0 : ∀ t, (![0, 0] : Fin 2 → ℕ) t + S256x64.size t ≤ S256x1024.size t)
    (P1 : S256x64.Idx → Elt Ideal .f32) (inb1 : ∀ t, (![0, 64] : Fin 2 → ℕ) t + S256x64.size t ≤ S256x1024.size t)
    (P2 : S256x64.Idx → Elt Ideal .f32) (inb2 : ∀ t, (![0, 128] : Fin 2 → ℕ) t + S256x64.size t ≤ S256x1024.size t)
    (P3 : S256x64.Idx → Elt Ideal .f32) (inb3 : ∀ t, (![0, 192] : Fin 2 → ℕ) t + S256x64.size t ≤ S256x1024.size t)
    (P4 : S256x64.Idx → Elt Ideal .f32) (inb4 : ∀ t, (![0, 256] : Fin 2 → ℕ) t + S256x64.size t ≤ S256x1024.size t)
    (P5 : S256x64.Idx → Elt Ideal .f32) (inb5 : ∀ t, (![0, 320] : Fin 2 → ℕ) t + S256x64.size t ≤ S256x1024.size t)
    (P6 : S256x64.Idx → Elt Ideal .f32) (inb6 : ∀ t, (![0, 384] : Fin 2 → ℕ) t + S256x64.size t ≤ S256x1024.size t)
    (P7 : S256x64.Idx → Elt Ideal .f32) (inb7 : ∀ t, (![0, 448] : Fin 2 → ℕ) t + S256x64.size t ≤ S256x1024.size t)
    (P8 : S256x64.Idx → Elt Ideal .f32) (inb8 : ∀ t, (![0, 512] : Fin 2 → ℕ) t + S256x64.size t ≤ S256x1024.size t)
    (P9 : S256x64.Idx → Elt Ideal .f32) (inb9 : ∀ t, (![0, 576] : Fin 2 → ℕ) t + S256x64.size t ≤ S256x1024.size t)
    (P10 : S256x64.Idx → Elt Ideal .f32) (inb10 : ∀ t, (![0, 640] : Fin 2 → ℕ) t + S256x64.size t ≤ S256x1024.size t)
    (P11 : S256x64.Idx → Elt Ideal .f32) (inb11 : ∀ t, (![0, 704] : Fin 2 → ℕ) t + S256x64.size t ≤ S256x1024.size t)
    (P12 : S256x64.Idx → Elt Ideal .f32) (inb12 : ∀ t, (![0, 768] : Fin 2 → ℕ) t + S256x64.size t ≤ S256x1024.size t)
    (P13 : S256x64.Idx → Elt Ideal .f32) (inb13 : ∀ t, (![0, 832] : Fin 2 → ℕ) t + S256x64.size t ≤ S256x1024.size t)
    (P14 : S256x64.Idx → Elt Ideal .f32) (inb14 : ∀ t, (![0, 896] : Fin 2 → ℕ) t + S256x64.size t ≤ S256x1024.size t)
    (P15 : S256x64.Idx → Elt Ideal .f32) (inb15 : ∀ t, (![0, 960] : Fin 2 → ℕ) t + S256x64.size t ≤ S256x1024.size t)
    (h0 : ∀ x : S256x64.Idx, P0 x = G ((Rect.unit (s := S256x1024) ![0, 0] S256x64.size inb0).emb x))
    (h1 : ∀ x : S256x64.Idx, P1 x = G ((Rect.unit (s := S256x1024) ![0, 64] S256x64.size inb1).emb x))
    (h2 : ∀ x : S256x64.Idx, P2 x = G ((Rect.unit (s := S256x1024) ![0, 128] S256x64.size inb2).emb x))
    (h3 : ∀ x : S256x64.Idx, P3 x = G ((Rect.unit (s := S256x1024) ![0, 192] S256x64.size inb3).emb x))
    (h4 : ∀ x : S256x64.Idx, P4 x = G ((Rect.unit (s := S256x1024) ![0, 256] S256x64.size inb4).emb x))
    (h5 : ∀ x : S256x64.Idx, P5 x = G ((Rect.unit (s := S256x1024) ![0, 320] S256x64.size inb5).emb x))
    (h6 : ∀ x : S256x64.Idx, P6 x = G ((Rect.unit (s := S256x1024) ![0, 384] S256x64.size inb6).emb x))
    (h7 : ∀ x : S256x64.Idx, P7 x = G ((Rect.unit (s := S256x1024) ![0, 448] S256x64.size inb7).emb x))
    (h8 : ∀ x : S256x64.Idx, P8 x = G ((Rect.unit (s := S256x1024) ![0, 512] S256x64.size inb8).emb x))
    (h9 : ∀ x : S256x64.Idx, P9 x = G ((Rect.unit (s := S256x1024) ![0, 576] S256x64.size inb9).emb x))
    (h10 : ∀ x : S256x64.Idx, P10 x = G ((Rect.unit (s := S256x1024) ![0, 640] S256x64.size inb10).emb x))
    (h11 : ∀ x : S256x64.Idx, P11 x = G ((Rect.unit (s := S256x1024) ![0, 704] S256x64.size inb11).emb x))
    (h12 : ∀ x : S256x64.Idx, P12 x = G ((Rect.unit (s := S256x1024) ![0, 768] S256x64.size inb12).emb x))
    (h13 : ∀ x : S256x64.Idx, P13 x = G ((Rect.unit (s := S256x1024) ![0, 832] S256x64.size inb13).emb x))
    (h14 : ∀ x : S256x64.Idx, P14 x = G ((Rect.unit (s := S256x1024) ![0, 896] S256x64.size inb14).emb x))
    (h15 : ∀ x : S256x64.Idx, P15 x = G ((Rect.unit (s := S256x1024) ![0, 960] S256x64.size inb15).emb x))
    (y : S256x1024.Idx) :
    View.canon (Val := Elt Ideal) (s := S256x1024) (e := .f32)
      [⟨Rect.unit (s := S256x1024) ![0, 960] S256x64.size inb15, P15⟩,
       ⟨Rect.unit (s := S256x1024) ![0, 896] S256x64.size inb14, P14⟩,
       ⟨Rect.unit (s := S256x1024) ![0, 832] S256x64.size inb13, P13⟩,
       ⟨Rect.unit (s := S256x1024) ![0, 768] S256x64.size inb12, P12⟩,
       ⟨Rect.unit (s := S256x1024) ![0, 704] S256x64.size inb11, P11⟩,
       ⟨Rect.unit (s := S256x1024) ![0, 640] S256x64.size inb10, P10⟩,
       ⟨Rect.unit (s := S256x1024) ![0, 576] S256x64.size inb9, P9⟩,
       ⟨Rect.unit (s := S256x1024) ![0, 512] S256x64.size inb8, P8⟩,
       ⟨Rect.unit (s := S256x1024) ![0, 448] S256x64.size inb7, P7⟩,
       ⟨Rect.unit (s := S256x1024) ![0, 384] S256x64.size inb6, P6⟩,
       ⟨Rect.unit (s := S256x1024) ![0, 320] S256x64.size inb5, P5⟩,
       ⟨Rect.unit (s := S256x1024) ![0, 256] S256x64.size inb4, P4⟩,
       ⟨Rect.unit (s := S256x1024) ![0, 192] S256x64.size inb3, P3⟩,
       ⟨Rect.unit (s := S256x1024) ![0, 128] S256x64.size inb2, P2⟩,
       ⟨Rect.unit (s := S256x1024) ![0, 64] S256x64.size inb1, P1⟩,
       ⟨Rect.unit (s := S256x1024) ![0, 0] S256x64.size inb0, P0⟩] y = G y := by
  obtain ⟨r, j, rfl⟩ : ∃ (r : Fin 256) (j : Fin 1024), y = ix2 r j := ⟨y 0, y 1, eq_ix2 y⟩
  refine View.canon_apply_of_pieces G _ ?_ _ ?_
  · intro p hp
    simp only [List.mem_cons, List.not_mem_nil, or_false] at hp
    rcases hp with rfl | rfl | rfl | rfl | rfl | rfl | rfl | rfl | rfl | rfl | rfl | rfl | rfl | rfl | rfl | rfl
    · exact h15
    · exact h14
    · exact h13
    · exact h12
    · exact h11
    · exact h10
    · exact h9
    · exact h8
    · exact h7
    · exact h6
    · exact h5
    · exact h4
    · exact h3
    · exact h2
    · exact h1
    · exact h0
  · have hj := j.isLt
    have hr := r.isLt
    have hlt : j.val / 64 < 16 := by omega
    interval_cases hq : j.val / 64
    · refine ⟨⟨Rect.unit (s := S256x1024) ![0, 0] S256x64.size inb0, P0⟩, (.tail _ (.tail _ (.tail _ (.tail _ (.tail _ (.tail _ (.tail _ (.tail _ (.tail _ (.tail _ (.tail _ (.tail _ (.tail _ (.tail _ (.tail _ (.head _)))))))))))))))), ?_⟩
      show ix2 r j ∈ (Rect.unit (s := S256x1024) ![0, 0] S256x64.size inb0).set
      rw [Rect.mem_set_unit]
      intro t
      match t with
      | ⟨0, _⟩ => show 0 ≤ r.val ∧ r.val < 0 + 256; omega
      | ⟨1, _⟩ => show 0 ≤ j.val ∧ j.val < 0 + 64; omega
    · refine ⟨⟨Rect.unit (s := S256x1024) ![0, 64] S256x64.size inb1, P1⟩, (.tail _ (.tail _ (.tail _ (.tail _ (.tail _ (.tail _ (.tail _ (.tail _ (.tail _ (.tail _ (.tail _ (.tail _ (.tail _ (.tail _ (.head _))))))))))))))), ?_⟩
      show ix2 r j ∈ (Rect.unit (s := S256x1024) ![0, 64] S256x64.size inb1).set
      rw [Rect.mem_set_unit]
      intro t
      match t with
      | ⟨0, _⟩ => show 0 ≤ r.val ∧ r.val < 0 + 256; omega
      | ⟨1, _⟩ => show 64 ≤ j.val ∧ j.val < 64 + 64; omega
    · refine ⟨⟨Rect.unit (s := S256x1024) ![0, 128] S256x64.size inb2, P2⟩, (.tail _ (.tail _ (.tail _ (.tail _ (.tail _ (.tail _ (.tail _ (.tail _ (.tail _ (.tail _ (.tail _ (.tail _ (.tail _ (.head _)))))))))))))), ?_⟩
      show ix2 r j ∈ (Rect.unit (s := S256x1024) ![0, 128] S256x64.size inb2).set
      rw [Rect.mem_set_unit]
      intro t
      match t with
      | ⟨0, _⟩ => show 0 ≤ r.val ∧ r.val < 0 + 256; omega
      | ⟨1, _⟩ => show 128 ≤ j.val ∧ j.val < 128 + 64; omega
    · refine ⟨⟨Rect.unit (s := S256x1024) ![0, 192] S256x64.size inb3, P3⟩, (.tail _ (.tail _ (.tail _ (.tail _ (.tail _ (.tail _ (.tail _ (.tail _ (.tail _ (.tail _ (.tail _ (.tail _ (.head _))))))))))))), ?_⟩
      show ix2 r j ∈ (Rect.unit (s := S256x1024) ![0, 192] S256x64.size inb3).set
      rw [Rect.mem_set_unit]
      intro t
      match t with
      | ⟨0, _⟩ => show 0 ≤ r.val ∧ r.val < 0 + 256; omega
      | ⟨1, _⟩ => show 192 ≤ j.val ∧ j.val < 192 + 64; omega
    · refine ⟨⟨Rect.unit (s := S256x1024) ![0, 256] S256x64.size inb4, P4⟩, (.tail _ (.tail _ (.tail _ (.tail _ (.tail _ (.tail _ (.tail _ (.tail _ (.tail _ (.tail _ (.tail _ (.head _)))))))))))), ?_⟩
      show ix2 r j ∈ (Rect.unit (s := S256x1024) ![0, 256] S256x64.size inb4).set
      rw [Rect.mem_set_unit]
      intro t
      match t with
      | ⟨0, _⟩ => show 0 ≤ r.val ∧ r.val < 0 + 256; omega
      | ⟨1, _⟩ => show 256 ≤ j.val ∧ j.val < 256 + 64; omega
    · refine ⟨⟨Rect.unit (s := S256x1024) ![0, 320] S256x64.size inb5, P5⟩, (.tail _ (.tail _ (.tail _ (.tail _ (.tail _ (.tail _ (.tail _ (.tail _ (.tail _ (.tail _ (.head _))))))))))), ?_⟩
      show ix2 r j ∈ (Rect.unit (s := S256x1024) ![0, 320] S256x64.size inb5).set
      rw [Rect.mem_set_unit]
      intro t
      match t with
      | ⟨0, _⟩ => show 0 ≤ r.val ∧ r.val < 0 + 256; omega
      | ⟨1, _⟩ => show 320 ≤ j.val ∧ j.val < 320 + 64; omega
    · refine ⟨⟨Rect.unit (s := S256x1024) ![0, 384] S256x64.size inb6, P6⟩, (.tail _ (.tail _ (.tail _ (.tail _ (.tail _ (.tail _ (.tail _ (.tail _ (.tail _ (.head _)))))))))), ?_⟩
      show ix2 r j ∈ (Rect.unit (s := S256x1024) ![0, 384] S256x64.size inb6).set
      rw [Rect.mem_set_unit]
      intro t
      match t with
      | ⟨0, _⟩ => show 0 ≤ r.val ∧ r.val < 0 + 256; omega
      | ⟨1, _⟩ => show 384 ≤ j.val ∧ j.val < 384 + 64; omega
    · refine ⟨⟨Rect.unit (s := S256x1024) ![0, 448] S256x64.size inb7, P7⟩, (.tail _ (.tail _ (.tail _ (.tail _ (.tail _ (.tail _ (.tail _ (.tail _ (.head _))))))))), ?_⟩
      show ix2 r j ∈ (Rect.unit (s := S256x1024) ![0, 448] S256x64.size inb7).set
      rw [Rect.mem_set_unit]
      intro t
      match t with
      | ⟨0, _⟩ => show 0 ≤ r.val ∧ r.val < 0 + 256; omega
      | ⟨1, _⟩ => show 448 ≤ j.val ∧ j.val < 448 + 64; omega
    · refine ⟨⟨Rect.unit (s := S256x1024) ![0, 512] S256x64.size inb8, P8⟩, (.tail _ (.tail _ (.tail _ (.tail _ (.tail _ (.tail _ (.tail _ (.head _)))))))), ?_⟩
      show ix2 r j ∈ (Rect.unit (s := S256x1024) ![0, 512] S256x64.size inb8).set
      rw [Rect.mem_set_unit]
      intro t
      match t with
      | ⟨0, _⟩ => show 0 ≤ r.val ∧ r.val < 0 + 256; omega
      | ⟨1, _⟩ => show 512 ≤ j.val ∧ j.val < 512 + 64; omega
    · refine ⟨⟨Rect.unit (s := S256x1024) ![0, 576] S256x64.size inb9, P9⟩, (.tail _ (.tail _ (.tail _ (.tail _ (.tail _ (.tail _ (.head _))))))), ?_⟩
      show ix2 r j ∈ (Rect.unit (s := S256x1024) ![0, 576] S256x64.size inb9).set
      rw [Rect.mem_set_unit]
      intro t
      match t with
      | ⟨0, _⟩ => show 0 ≤ r.val ∧ r.val < 0 + 256; omega
      | ⟨1, _⟩ => show 576 ≤ j.val ∧ j.val < 576 + 64; omega
    · refine ⟨⟨Rect.unit (s := S256x1024) ![0, 640] S256x64.size inb10, P10⟩, (.tail _ (.tail _ (.tail _ (.tail _ (.tail _ (.head _)))))), ?_⟩
      show ix2 r j ∈ (Rect.unit (s := S256x1024) ![0, 640] S256x64.size inb10).set
      rw [Rect.mem_set_unit]
      intro t
      match t with
      | ⟨0, _⟩ => show 0 ≤ r.val ∧ r.val < 0 + 256; omega
      | ⟨1, _⟩ => show 640 ≤ j.val ∧ j.val < 640 + 64; omega
    · refine ⟨⟨Rect.unit (s := S256x1024) ![0, 704] S256x64.size inb11, P11⟩, (.tail _ (.tail _ (.tail _ (.tail _ (.head _))))), ?_⟩
      show ix2 r j ∈ (Rect.unit (s := S256x1024) ![0, 704] S256x64.size inb11).set
      rw [Rect.mem_set_unit]
      intro t
      match t with
      | ⟨0, _⟩ => show 0 ≤ r.val ∧ r.val < 0 + 256; omega
      | ⟨1, _⟩ => show 704 ≤ j.val ∧ j.val < 704 + 64; omega
    · refine ⟨⟨Rect.unit (s := S256x1024) ![0, 768] S256x64.size inb12, P12⟩, (.tail _ (.tail _ (.tail _ (.head _)))), ?_⟩
      show ix2 r j ∈ (Rect.unit (s := S256x1024) ![0, 768] S256x64.size inb12).set
      rw [Rect.mem_set_unit]
      intro t
      match t with
      | ⟨0, _⟩ => show 0 ≤ r.val ∧ r.val < 0 + 256; omega
      | ⟨1, _⟩ => show 768 ≤ j.val ∧ j.val < 768 + 64; omega
    · refine ⟨⟨Rect.unit (s := S256x1024) ![0, 832] S256x64.size inb13, P13⟩, (.tail _ (.tail _ (.head _))), ?_⟩
      show ix2 r j ∈ (Rect.unit (s := S256x1024) ![0, 832] S256x64.size inb13).set
      rw [Rect.mem_set_unit]
      intro t
      match t with
      | ⟨0, _⟩ => show 0 ≤ r.val ∧ r.val < 0 + 256; omega
      | ⟨1, _⟩ => show 832 ≤ j.val ∧ j.val < 832 + 64; omega
    · refine ⟨⟨Rect.unit (s := S256x1024) ![0, 896] S256x64.size inb14, P14⟩, (.tail _ (.head _)), ?_⟩
      show ix2 r j ∈ (Rect.unit (s := S256x1024) ![0, 896] S256x64.size inb14).set
      rw [Rect.mem_set_unit]
      intro t
      match t with
      | ⟨0, _⟩ => show 0 ≤ r.val ∧ r.val < 0 + 256; omega
      | ⟨1, _⟩ => show 896 ≤ j.val ∧ j.val < 896 + 64; omega
    · refine ⟨⟨Rect.unit (s := S256x1024) ![0, 960] S256x64.size inb15, P15⟩, (.head _), ?_⟩
      show ix2 r j ∈ (Rect.unit (s := S256x1024) ![0, 960] S256x64.size inb15).set
      rw [Rect.mem_set_unit]
      intro t
      match t with
      | ⟨0, _⟩ => show 0 ≤ r.val ∧ r.val < 0 + 256; omega
      | ⟨1, _⟩ => show 960 ≤ j.val ∧ j.val < 960 + 64; omega

end Cert.KSlabs

end
-- ==== Proof.KBlock.lean ====
/-
  What the body leaves in the output block of one grid point, as a function of the nine input blocks: at row `r` and
  column `e` it is the token's function of row `r` of the token block and of the weights and biases. The scratch
  buffer is filled by 16 column slabs, slab `a` being the attended head of query head `a`, and read back whole; the
  last projection is taken of what it then holds.
-/
import proofs.«164140_j43044162240543_2_alg».proof.Proof.Gen.KernelIdeal.Frame
import proofs.«164140_j43044162240543_2_alg».proof.Proof.KHead
import proofs.«164140_j43044162240543_2_alg».proof.Proof.KSlabs
import Idealize.ShloMosaic.Lib.Pipeline.Value
import Idealize.ShloMosaic.Lib.Tactic

set_option maxRecDepth 16384

noncomputable section

namespace Cert.KBlock

open Cert.KernelIdeal Cert.KernelIdeal.Gen Idealize.ShloMosaic Idealize.ShloMosaic.TcCoe Idealize.SL.Sem
open Idealize.ShloMosaic.ValueIdx Cert.Spec Cert.KHead

/-! ## Each slab's payload is the attended head of its query head -/

section Slabs
variable {F : FTy → Type} [FloatOps F]

theorem slab0_eq (v0 : Vec F S256x1024 .f32) (v2 v4 : Vec F S1024x1024 .bf16) (v10 v11 : Vec F S1024 .f32) (v29 : FVec F S256x16x64 .f32) :
    k0_pay10 v29 (k0_pay8 v0 v2 v4 v10 v11) (k0_pay9 v0 v2 v4 v10 v11) = headV 0 slices_S256x1024_o0_0_S256x64 (k0_pay5 v0 v2 v10) (k0_pay6 v0 v4 v11) v29 := rfl
theorem slab1_eq (v27 : FVec F S256x1024 .f32) (v28 v29 : FVec F S256x16x64 .f32) :
    k0_pay11 v27 v28 v29 = headV 64 slices_S256x1024_o0_64_S256x64 v27 v28 v29 := rfl
theorem slab2_eq (v27 : FVec F S256x1024 .f32) (v28 v29 : FVec F S256x16x64 .f32) :
    k0_pay14 v29 (k0_pay12 v27 v28) (k0_pay13 v27 v28) (FloatOps.ofBits .f32 0xFF800000#32) = headV 128 slices_S256x1024_o0_128_S256x64 v27 v28 v29 := rfl
theorem slab3_eq (v27 : FVec F S256x1024 .f32) (v28 v29 : FVec F S256x16x64 .f32) :
    k0_pay15 v27 v28 v29 = headV 192 slices_S256x1024_o0_192_S256x64 v27 v28 v29 := rfl
theorem slab4_eq (v27 : FVec F S256x1024 .f32) (v28 v29 : FVec F S256x16x64 .f32) :
    k0_pay17 v29 (k0_pay16 v27 v28) = headV 256 slices_S256x1024_o0_256_S256x64 v27 v28 v29 := rfl
theorem slab5_eq (v27 : FVec F S256x1024 .f32) (v28 v29 : FVec F S256x16x64 .f32) :
    k0_pay18 v27 v28 v29 = headV 320 slices_S256x1024_o0_320_S256x64 v27 v28 v29 := rfl
theorem slab6_eq (v27 : FVec F S256x1024 .f32) (v28 v29 : FVec F S256x16x64 .f32) :
    k0_pay20 v29 (k0_pay19 v27 v28) = headV 384 slices_S256x1024_o0_384_S256x64 v27 v28 v29 := rfl
theorem slab7_eq (v27 : FVec F S256x1024 .f32) (v28 v29 : FVec F S256x16x64 .f32) :
    k0_pay21 v27 v28 v29 = headV 448 slices_S256x1024_o0_448_S256x64 v27 v28 v29 := rfl
theorem slab8_eq (v27 : FVec F S256x1024 .f32) (v28 v29 : FVec F S256x16x64 .f32) :
    k0_pay23 v28 v29 (k0_pay22 v27) = headV 512 slices_S256x1024_o0_512_S256x64 v27 v28 v29 := rfl
theorem slab9_eq (v27 : FVec F S256x1024 .f32) (v28 v29 : FVec F S256x16x64 .f32) :
    k0_pay24 v27 v28 v29 = headV 576 slices_S256x1024_o0_576_S256x64 v27 v28 v29 := rfl
theorem slab10_eq (v27 : FVec F S256x1024 .f32) (v28 v29 : FVec F S256x16x64 .f32) :
    k0_pay26 v28 v29 (k0_pay25 v27) = headV 640 slices_S256x1024_o0_640_S256x64 v27 v28 v29 := rfl
theorem slab11_eq (v27 : FVec F S256x1024 .f32) (v28 v29 : FVec F S256x16x64 .f32) :
    k0_pay27 v27 v28 v29 = headV 704 slices_S256x1024_o0_704_S256x64 v27 v28 v29 := rfl
theorem slab12_eq (v27 : FVec F S256x1024 .f32) (v28 v29 : FVec F S256x16x64 .f32) :
    k0_pay28 v27 v28 v29 = headV 768 slices_S256x1024_o0_768_S256x64 v27 v28 v29 := rfl
theorem slab13_eq (v27 : FVec F S256x1024 .f32) (v28 v29 : FVec F S256x16x64 .f32) :
    k0_pay30 (k0_pay29 v27 v28 v29) = headV 832 slices_S256x1024_o0_832_S256x64 v27 v28 v29 := rfl
theorem slab14_eq (v27 : FVec F S256x1024 .f32) (v28 v29 : FVec F S256x16x64 .f32) :
    k0_pay31 v27 v28 v29 = headV 896 slices_S256x1024_o0_896_S256x64 v27 v28 v29 := rfl
theorem slab15_eq (v27 : FVec F S256x1024 .f32) (v28 v29 : FVec F S256x16x64 .f32) :
    k0_pay1 (k0_pay32 v27 v28 v29) = headV 960 slices_S256x1024_o0_960_S256x64 v27 v28 v29 := rfl

end Slabs

/-! ## The projections at an index -/

variable (x0 : Vec Ideal S256x1024 .f32) (x1 : Vec Ideal S1024x1024 .bf16) (x2 : Vec Ideal S1024 .f32)
  (x3 : Vec Ideal S1024x1024 .bf16) (x4 : Vec Ideal S1024 .f32) (x5 : Vec Ideal S1024x1024 .bf16) (x6 : Vec Ideal S1024 .f32)
  (x7 : Vec Ideal S1024x1024 .bf16) (x8 : Vec Ideal S1024 .f32)

/-- Row `r` of the token block. -/
abbrev row (r : Fin 256) : Fin 1024 → EReal := fun i => x0 (ix2 r i)
/-- A weight block, input index first. -/
abbrev mat (w : Vec Ideal S1024x1024 .bf16) : Fin 1024 → Fin 1024 → EReal := fun i j => w (ix2 i j)
/-- A bias block. -/
abbrev bia (b : Vec Ideal S1024 .f32) : Fin 1024 → EReal := fun j => b (ix1 j)

/-- The scaled queries. -/
theorem q_apply (r : Fin 256) (j : Fin 1024) :
    k0_pay5 (F := Ideal) x0 x1 x2 (ix2 r j) = proj (row x0 r) (mat x1) (bia x2) j * Ideal.ofBits .f32 0x3E000000#32 := by
  unfold k0_pay5 k0_pay3
  dsimp only
  rw [mulf_apply, addf_apply, broadcast_apply, shapeCast_self, Cert.KLayout.prod_apply, Cert.KLayout.bias_apply]
  rfl

/-- The keys, by heads. -/
theorem k_apply (r : Fin 256) (b : Fin 16) (d : Fin 64) :
    k0_pay6 (F := Ideal) x0 x3 x4 (ix3 r b d) = proj (row x0 r) (mat x3) (bia x4) (col b d) := by
  unfold k0_pay6 k0_pay3
  dsimp only
  rw [Cert.KLayout.heads_apply, addf_apply, shapeCast_self, Cert.KLayout.prod_apply, Cert.KLayout.bias_apply]
  rfl

/-- The values, by heads. -/
theorem v_apply (r : Fin 256) (b : Fin 16) (d : Fin 64) :
    k0_pay7 (F := Ideal) x0 x5 x6 (ix3 r b d) = proj (row x0 r) (mat x5) (bia x6) (col b d) := by
  unfold k0_pay7 k0_pay3
  dsimp only
  rw [Cert.KLayout.heads_apply, addf_apply, shapeCast_self, Cert.KLayout.prod_apply, Cert.KLayout.bias_apply]
  rfl

/-- The last projection, of whatever the scratch holds. -/
theorem out_apply (T : Vec Ideal S256x1024 .f32) (r : Fin 256) (e : Fin 1024) :
    k0_pay2 (F := Ideal) (k0_pay4 x7) x8 T (ix2 r e) = proj (fun j => T (ix2 r j)) (mat x7) (bia x8) e := by
  unfold k0_pay2 k0_pay4
  dsimp only
  rw [addf_apply, shapeCast_self, Cert.KLayout.prod_apply, Cert.KLayout.bias_apply]
  rfl

/-! ## What the scratch holds -/

/-- The attended row of token `r`, entry `j`. -/
def scrAt (r : Fin 256) (j : Fin 1024) : EReal :=
  att (scoreK (proj (row x0 r) (mat x1) (bia x2)) (proj (row x0 r) (mat x3) (bia x4))) (proj (row x0 r) (mat x5) (bia x6)) j

/-- The same as a function of the scratch's index. -/
def scr : S256x1024.Idx → Elt Ideal .f32 := fun y => scrAt x0 x1 x2 x3 x4 x5 x6 ⟨(y 0).val, idx2_lt0 y⟩ ⟨(y 1).val, idx2_lt1 y⟩

/-- The attended head of query head `a` is the block of `scr` under slab `a`. -/
theorem piece_ok (a : Fin 16) (off : ℕ) (hoff : off = a.val * 64) (hs : S256x1024.Slices ![0, off] S256x64)
    (inb : ∀ t, (![0, off] : Fin 2 → ℕ) t + S256x64.size t ≤ S256x1024.size t) (x : S256x64.Idx) :
    headV off hs (k0_pay5 (F := Ideal) x0 x1 x2) (k0_pay6 (F := Ideal) x0 x3 x4) (k0_pay7 (F := Ideal) x0 x5 x6) x
      = scr x0 x1 x2 x3 x4 x5 x6 ((Rect.unit (s := S256x1024) ![0, off] S256x64.size inb).emb x) := by
  obtain ⟨r, d, rfl⟩ : ∃ (r : Fin 256) (d : Fin 64), x = ix2 r d := ⟨x 0, x 1, eq_ix2 x⟩
  have hy : (Rect.unit (s := S256x1024) ![0, off] S256x64.size inb).emb (ix2 r d) = ix2 r (col a d) := by
    funext t; apply Fin.ext
    match t with
    | ⟨0, _⟩ => show 0 + 1 * r.val = r.val; omega
    | ⟨1, _⟩ => show off + 1 * d.val = a.val * 64 + d.val; omega
  rw [hy, headV_apply a off hoff]
  show _ = att _ _ (col a d)
  unfold att
  rw [hd_col, lo_col]
  refine congrArg₂ soft (funext fun b => ?_) (funext fun b => v_apply x0 x5 x6 r b d)
  unfold scoreK
  exact Finset.sum_congr rfl fun d' _ => by rw [q_apply, k_apply]

/-! ## The block -/

theorem hz2 : (![0, 0] : Fin 2 → ℕ) = fun _ => 0 := funext fun a => by fin_cases a <;> rfl
theorem hz1 : (![0] : Fin 1 → ℕ) = fun _ => 0 := funext fun a => by fin_cases a; rfl

/-- What the body leaves in the output block, at row `r` and column `e`. -/
theorem block_eq (c : Dev nD) (i : grid0.Coords) (arg1 : Memref sig .tc .vmem S256x1024 .f32) (harg1 : arg1.IsWhole) (arg2 : Memref sig .tc .vmem S1024x1024 .bf16) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S256x1024 .f32) (harg10 : arg10.IsWhole) (arg11 : Memref sig .tc .vmem S256x1024 .f32) (harg11 : arg11.IsWhole) (x0 : Vec Ideal S256x1024 .f32) (x1 : Vec Ideal S1024x1024 .bf16) (x2 : Vec Ideal S1024 .f32) (x3 : Vec Ideal S1024x1024 .bf16) (x4 : Vec Ideal S1024 .f32) (x5 : Vec Ideal S1024x1024 .bf16) (x6 : Vec Ideal S1024 .f32) (x7 : Vec Ideal S1024x1024 .bf16) (x8 : Vec Ideal S1024 .f32) (r : Fin 256) (e : Fin 1024) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 r e)
      = tokK (row x0 r) (mat x1) (bia x2) (mat x3) (bia x4) (mat x5) (bia x6) (mat x7) (bia x8) e := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz2]
  simp only [View.readAt_eq_ld, harg1.read_unread, harg2.read_unread, harg3.read_unread, harg4.read_unread, harg5.read_unread,
    harg6.read_unread, harg7.read_unread, harg8.read_unread, harg9.read_unread, View.ld_unit_zero (S := S256x1024) hz2,
    View.ld_unit_zero (S := S1024x1024) hz2, View.ld_unit_zero (S := S1024) hz1]
  rw [out_apply]
  unfold tokK
  refine congrArg (fun T => proj T (mat x7) (bia x8) e) (funext fun j => ?_)
  rw [Cert.KSlabs.readCov_whole]
  rw [slab0_eq, slab1_eq, slab2_eq, slab3_eq, slab4_eq, slab5_eq, slab6_eq, slab7_eq, slab8_eq, slab9_eq, slab10_eq, slab11_eq, slab12_eq, slab13_eq, slab14_eq, slab15_eq]
  exact Cert.KSlabs.slabs_canon (scr x0 x1 x2 x3 x4 x5 x6)
    _ inb_S256x1024_S256x64_0_0
    _ inb_S256x1024_S256x64_0_64
    _ inb_S256x1024_S256x64_0_128
    _ inb_S256x1024_S256x64_0_192
    _ inb_S256x1024_S256x64_0_256
    _ inb_S256x1024_S256x64_0_320
    _ inb_S256x1024_S256x64_0_384
    _ inb_S256x1024_S256x64_0_448
    _ inb_S256x1024_S256x64_0_512
    _ inb_S256x1024_S256x64_0_576
    _ inb_S256x1024_S256x64_0_640
    _ inb_S256x1024_S256x64_0_704
    _ inb_S256x1024_S256x64_0_768
    _ inb_S256x1024_S256x64_0_832
    _ inb_S256x1024_S256x64_0_896
    _ inb_S256x1024_S256x64_0_960
    (piece_ok x0 x1 x2 x3 x4 x5 x6 0 0 rfl slices_S256x1024_o0_0_S256x64 inb_S256x1024_S256x64_0_0)
    (piece_ok x0 x1 x2 x3 x4 x5 x6 1 64 rfl slices_S256x1024_o0_64_S256x64 inb_S256x1024_S256x64_0_64)
    (piece_ok x0 x1 x2 x3 x4 x5 x6 2 128 rfl slices_S256x1024_o0_128_S256x64 inb_S256x1024_S256x64_0_128)
    (piece_ok x0 x1 x2 x3 x4 x5 x6 3 192 rfl slices_S256x1024_o0_192_S256x64 inb_S256x1024_S256x64_0_192)
    (piece_ok x0 x1 x2 x3 x4 x5 x6 4 256 rfl slices_S256x1024_o0_256_S256x64 inb_S256x1024_S256x64_0_256)
    (piece_ok x0 x1 x2 x3 x4 x5 x6 5 320 rfl slices_S256x1024_o0_320_S256x64 inb_S256x1024_S256x64_0_320)
    (piece_ok x0 x1 x2 x3 x4 x5 x6 6 384 rfl slices_S256x1024_o0_384_S256x64 inb_S256x1024_S256x64_0_384)
    (piece_ok x0 x1 x2 x3 x4 x5 x6 7 448 rfl slices_S256x1024_o0_448_S256x64 inb_S256x1024_S256x64_0_448)
    (piece_ok x0 x1 x2 x3 x4 x5 x6 8 512 rfl slices_S256x1024_o0_512_S256x64 inb_S256x1024_S256x64_0_512)
    (piece_ok x0 x1 x2 x3 x4 x5 x6 9 576 rfl slices_S256x1024_o0_576_S256x64 inb_S256x1024_S256x64_0_576)
    (piece_ok x0 x1 x2 x3 x4 x5 x6 10 640 rfl slices_S256x1024_o0_640_S256x64 inb_S256x1024_S256x64_0_640)
    (piece_ok x0 x1 x2 x3 x4 x5 x6 11 704 rfl slices_S256x1024_o0_704_S256x64 inb_S256x1024_S256x64_0_704)
    (piece_ok x0 x1 x2 x3 x4 x5 x6 12 768 rfl slices_S256x1024_o0_768_S256x64 inb_S256x1024_S256x64_0_768)
    (piece_ok x0 x1 x2 x3 x4 x5 x6 13 832 rfl slices_S256x1024_o0_832_S256x64 inb_S256x1024_S256x64_0_832)
    (piece_ok x0 x1 x2 x3 x4 x5 x6 14 896 rfl slices_S256x1024_o0_896_S256x64 inb_S256x1024_S256x64_0_896)
    (piece_ok x0 x1 x2 x3 x4 x5 x6 15 960 rfl slices_S256x1024_o0_960_S256x64 inb_S256x1024_S256x64_0_960)
    (ix2 r j)

end Cert.KBlock

end
-- ==== Proof.Whole.lean ====
/-
  The result array as one function of the nine argument arrays: entry `(n, e)` is the token's function of row `n` of
  the tokens, with each weight matrix read with its input index first.
-/
import proofs.«164140_j43044162240543_2_alg».proof.Proof.Spec
import Idealize.ShloMosaic.Lib.ValueIdx

noncomputable section

namespace Cert.Whole

open Idealize.ShloMosaic Idealize.ShloMosaic.ValueIdx Cert.Spec

/-- The result array. -/
def Gfin (H : (⟨2, ![65536, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨2, ![65536, 1024]⟩ : Shape).Idx → EReal :=
  fun i => tokK (fun k => H (ix2 (⟨(i 0).val, idx2_lt0 i⟩ : Fin 65536) k))
    (fun a b => Wq (ix2 b a)) (fun j => bq (ix1 j)) (fun a b => Wk (ix2 b a)) (fun j => bk (ix1 j))
    (fun a b => Wv (ix2 b a)) (fun j => bv (ix1 j)) (fun a b => Wo (ix2 b a)) (fun j => bo (ix1 j))
    (⟨(i 1).val, idx2_lt1 i⟩ : Fin 1024)

end Cert.Whole

end
-- ==== Proof.KValue.lean ====
/-
  From blocks to the array. Grid point `t` reads rows `256 t … 256 t + 255` of the tokens and the whole of every
  weight and bias, and writes rows `256 t … 256 t + 255` of the result. The weights the region finds are the
  arguments transposed (and narrowed, which changes nothing at the ideal values). So what point `t` writes back is
  block `t` of the result array's function, the 256 blocks cover the array, and the array after the run is that
  function of the arguments.
-/
import proofs.«164140_j43044162240543_2_alg».proof.Proof.Gen.KernelIdeal.Value
import proofs.«164140_j43044162240543_2_alg».proof.Proof.KBlock
import proofs.«164140_j43044162240543_2_alg».proof.Proof.Whole
import Idealize.ShloMosaic.Lib.Pipeline.Value
import Idealize.ShloMosaic.Lib.StableHlo.Run

set_option maxRecDepth 16384

noncomputable section

namespace Cert.KValue

open Cert.KernelIdeal Cert.KernelIdeal.Gen Idealize.ShloMosaic Idealize.ShloMosaic.TcCoe Idealize.SL.Sem
open Idealize.ShloMosaic.ValueIdx Cert.Spec Cert.Whole
open Idealize.ShloMosaic.Pipeline (Dat)

variable (m : (ℓ : Loc nD τ sig) → Buf (Elt Ideal) ℓ) (ρ : Dev nD → PrngReg)

/-! ## The index maps, decided over the 256 grid points -/

theorem idx_tok : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

theorem idx_w : ∀ t : Fin cfg0.N, win0_1.index t (0 : Fin 2) = 0 ∧ win0_1.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0 :=
  (by decide +kernel : ∀ t : Fin grid0.N, _)

theorem idx_b : ∀ t : Fin cfg0.N, win0_2.index t (0 : Fin 1) = 0 ∧ win0_4.index t (0 : Fin 1) = 0
    ∧ win0_6.index t (0 : Fin 1) = 0 ∧ win0_8.index t (0 : Fin 1) = 0 :=
  (by decide +kernel : ∀ t : Fin grid0.N, _)

/-! ## The input blocks, read off the arrays the region finds -/

/-- The token block at point `t`: rows `256 t + r`. -/
theorem blk_tok (c : Dev nD) (t : Fin cfg0.N) (r : Fin 256) (i : Fin 1024) (n : Fin 65536) (hn : n.val = t.val * 256 + r.val) :
    iblk (F := Ideal) m c 0 t (ix2 r i) = V m c main_arg0 (ix2 n i) := by
  obtain ⟨e0, e1, -, -⟩ := idx_tok t
  show V m c main_arg0 (((cfg0.win 0).blk t).view.emb (ix2 r i)) = _
  refine congrArg (V m c main_arg0) (funext fun a => Fin.ext ?_)
  match a with
  | ⟨0, _⟩ => show win0_0.index t (0 : Fin 2) * 256 + 1 * r.val = n.val; rw [e0, hn]; omega
  | ⟨1, _⟩ => show win0_0.index t (1 : Fin 2) * 1024 + 1 * i.val = i.val; rw [e1]; omega

/-- Weight window 1's block is its whole array. -/
theorem blk_w1 (c : Dev nD) (t : Fin cfg0.N) (i j : Fin 1024) :
    iblk (F := Ideal) m c 1 t (ix2 i j) = V m c main_v1 (ix2 i j) := by
  have e0 := (idx_w t).1
  have e1 := (idx_w t).2.1
  show V m c main_v1 (((cfg0.win 1).blk t).view.emb (ix2 i j)) = _
  refine congrArg (V m c main_v1) (funext fun a => Fin.ext ?_)
  match a with
  | ⟨0, _⟩ => show win0_1.index t (0 : Fin 2) * 1024 + 1 * i.val = i.val; rw [e0]; omega
  | ⟨1, _⟩ => show win0_1.index t (1 : Fin 2) * 1024 + 1 * j.val = j.val; rw [e1]; omega

/-- Weight window 3's block is its whole array. -/
theorem blk_w3 (c : Dev nD) (t : Fin cfg0.N) (i j : Fin 1024) :
    iblk (F := Ideal) m c 3 t (ix2 i j) = V m c main_v3 (ix2 i j) := by
  have e0 := (idx_w t).2.2.1
  have e1 := (idx_w t).2.2.2.1
  show V m c main_v3 (((cfg0.win 3).blk t).view.emb (ix2 i j)) = _
  refine congrArg (V m c main_v3) (funext fun a => Fin.ext ?_)
  match a with
  | ⟨0, _⟩ => show win0_3.index t (0 : Fin 2) * 1024 + 1 * i.val = i.val; rw [e0]; omega
  | ⟨1, _⟩ => show win0_3.index t (1 : Fin 2) * 1024 + 1 * j.val = j.val; rw [e1]; omega

/-- Weight window 5's block is its whole array. -/
theorem blk_w5 (c : Dev nD) (t : Fin cfg0.N) (i j : Fin 1024) :
    iblk (F := Ideal) m c 5 t (ix2 i j) = V m c main_v5 (ix2 i j) := by
  have e0 := (idx_w t).2.2.2.2.1
  have e1 := (idx_w t).2.2.2.2.2.1
  show V m c main_v5 (((cfg0.win 5).blk t).view.emb (ix2 i j)) = _
  refine congrArg (V m c main_v5) (funext fun a => Fin.ext ?_)
  match a with
  | ⟨0, _⟩ => show win0_5.index t (0 : Fin 2) * 1024 + 1 * i.val = i.val; rw [e0]; omega
  | ⟨1, _⟩ => show win0_5.index t (1 : Fin 2) * 1024 + 1 * j.val = j.val; rw [e1]; omega

/-- Weight window 7's block is its whole array. -/
theorem blk_w7 (c : Dev nD) (t : Fin cfg0.N) (i j : Fin 1024) :
    iblk (F := Ideal) m c 7 t (ix2 i j) = V m c main_v7 (ix2 i j) := by
  have e0 := (idx_w t).2.2.2.2.2.2.1
  have e1 := (idx_w t).2.2.2.2.2.2.2
  show V m c main_v7 (((cfg0.win 7).blk t).view.emb (ix2 i j)) = _
  refine congrArg (V m c main_v7) (funext fun a => Fin.ext ?_)
  match a with
  | ⟨0, _⟩ => show win0_7.index t (0 : Fin 2) * 1024 + 1 * i.val = i.val; rw [e0]; omega
  | ⟨1, _⟩ => show win0_7.index t (1 : Fin 2) * 1024 + 1 * j.val = j.val; rw [e1]; omega

/-- Bias window 2's block is its whole array. -/
theorem blk_b2 (c : Dev nD) (t : Fin cfg0.N) (j : Fin 1024) :
    iblk (F := Ideal) m c 2 t (ix1 j) = V m c main_arg2 (ix1 j) := by
  have e0 := (idx_b t).1
  show V m c main_arg2 (((cfg0.win 2).blk t).view.emb (ix1 j)) = _
  refine congrArg (V m c main_arg2) (funext fun a => Fin.ext ?_)
  match a with
  | ⟨0, _⟩ => show win0_2.index t (0 : Fin 1) * 1024 + 1 * j.val = j.val; rw [e0]; omega

/-- Bias window 4's block is its whole array. -/
theorem blk_b4 (c : Dev nD) (t : Fin cfg0.N) (j : Fin 1024) :
    iblk (F := Ideal) m c 4 t (ix1 j) = V m c main_arg4 (ix1 j) := by
  have e0 := (idx_b t).2.1
  show V m c main_arg4 (((cfg0.win 4).blk t).view.emb (ix1 j)) = _
  refine congrArg (V m c main_arg4) (funext fun a => Fin.ext ?_)
  match a with
  | ⟨0, _⟩ => show win0_4.index t (0 : Fin 1) * 1024 + 1 * j.val = j.val; rw [e0]; omega

/-- Bias window 6's block is its whole array. -/
theorem blk_b6 (c : Dev nD) (t : Fin cfg0.N) (j : Fin 1024) :
    iblk (F := Ideal) m c 6 t (ix1 j) = V m c main_arg6 (ix1 j) := by
  have e0 := (idx_b t).2.2.1
  show V m c main_arg6 (((cfg0.win 6).blk t).view.emb (ix1 j)) = _
  refine congrArg (V m c main_arg6) (funext fun a => Fin.ext ?_)
  match a with
  | ⟨0, _⟩ => show win0_6.index t (0 : Fin 1) * 1024 + 1 * j.val = j.val; rw [e0]; omega

/-- Bias window 8's block is its whole array. -/
theorem blk_b8 (c : Dev nD) (t : Fin cfg0.N) (j : Fin 1024) :
    iblk (F := Ideal) m c 8 t (ix1 j) = V m c main_arg8 (ix1 j) := by
  have e0 := (idx_b t).2.2.2
  show V m c main_arg8 (((cfg0.win 8).blk t).view.emb (ix1 j)) = _
  refine congrArg (V m c main_arg8) (funext fun a => Fin.ext ?_)
  match a with
  | ⟨0, _⟩ => show win0_8.index t (0 : Fin 1) * 1024 + 1 * j.val = j.val; rw [e0]; omega

/-! ## The weights the region finds: the arguments transposed -/

theorem V_w1 (c : Dev nD) : (V m c main_v1 : S1024x1024.Idx → EReal)
    = (truncf (F := Ideal) .bf16 (transpose S1024x1024 [1, 0] (m ((c : Thread nD τ).loc main_arg1)) transposes_S1024x1024_S1024x1024_1_0) bitsLt_bf16_f32 : S1024x1024.Idx → EReal) := by
  dsimp only [Gen.V, Gen.hostOps0]; after_results

theorem w1_apply (c : Dev nD) (i j : Fin 1024) :
    V m c main_v1 (ix2 i j) = m ((c : Thread nD τ).loc main_arg1) (ix2 j i) :=
  (congrFun (V_w1 m c) (ix2 i j)).trans
    (transpose_apply [1, 0] _ transposes_S1024x1024_S1024x1024_1_0 (ix2 i j) (ix2 j i) (fun b => match b with
      | ⟨0, _⟩ => rfl
      | ⟨1, _⟩ => rfl))

theorem V_w3 (c : Dev nD) : (V m c main_v3 : S1024x1024.Idx → EReal)
    = (truncf (F := Ideal) .bf16 (transpose S1024x1024 [1, 0] (m ((c : Thread nD τ).loc main_arg3)) transposes_S1024x1024_S1024x1024_1_0) bitsLt_bf16_f32 : S1024x1024.Idx → EReal) := by
  dsimp only [Gen.V, Gen.hostOps0]; after_results

theorem w3_apply (c : Dev nD) (i j : Fin 1024) :
    V m c main_v3 (ix2 i j) = m ((c : Thread nD τ).loc main_arg3) (ix2 j i) :=
  (congrFun (V_w3 m c) (ix2 i j)).trans
    (transpose_apply [1, 0] _ transposes_S1024x1024_S1024x1024_1_0 (ix2 i j) (ix2 j i) (fun b => match b with
      | ⟨0, _⟩ => rfl
      | ⟨1, _⟩ => rfl))

theorem V_w5 (c : Dev nD) : (V m c main_v5 : S1024x1024.Idx → EReal)
    = (truncf (F := Ideal) .bf16 (transpose S1024x1024 [1, 0] (m ((c : Thread nD τ).loc main_arg5)) transposes_S1024x1024_S1024x1024_1_0) bitsLt_bf16_f32 : S1024x1024.Idx → EReal) := by
  dsimp only [Gen.V, Gen.hostOps0]; after_results

theorem w5_apply (c : Dev nD) (i j : Fin 1024) :
    V m c main_v5 (ix2 i j) = m ((c : Thread nD τ).loc main_arg5) (ix2 j i) :=
  (congrFun (V_w5 m c) (ix2 i j)).trans
    (transpose_apply [1, 0] _ transposes_S1024x1024_S1024x1024_1_0 (ix2 i j) (ix2 j i) (fun b => match b with
      | ⟨0, _⟩ => rfl
      | ⟨1, _⟩ => rfl))

theorem V_w7 (c : Dev nD) : (V m c main_v7 : S1024x1024.Idx → EReal)
    = (truncf (F := Ideal) .bf16 (transpose S1024x1024 [1, 0] (m ((c : Thread nD τ).loc main_arg7)) transposes_S1024x1024_S1024x1024_1_0) bitsLt_bf16_f32 : S1024x1024.Idx → EReal) := by
  dsimp only [Gen.V, Gen.hostOps0]; after_results

theorem w7_apply (c : Dev nD) (i j : Fin 1024) :
    V m c main_v7 (ix2 i j) = m ((c : Thread nD τ).loc main_arg7) (ix2 j i) :=
  (congrFun (V_w7 m c) (ix2 i j)).trans
    (transpose_apply [1, 0] _ transposes_S1024x1024_S1024x1024_1_0 (ix2 i j) (ix2 j i) (fun b => match b with
      | ⟨0, _⟩ => rfl
      | ⟨1, _⟩ => rfl))

/-! ## What each point writes back, the cover, and the array after the run -/

/-- The result array's function of the arguments as launched. -/
abbrev result (c : Dev nD) : S65536x1024.Idx → Elt Ideal .f32 := Gfin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What point `t` writes back is block `t` of the result. -/
theorem flushed_eq (c : Dev nD) (t : Fin cfg0.N) :
    (dats m 0 c).flushed 9 t = ((cfg0.win 9).blk t).view.read (Elt Ideal) (result m c) := by
  rw [Cert.KernelIdeal.Value.flushed9_A]
  funext y
  obtain ⟨r, e, rfl⟩ : ∃ (r : Fin 256) (e : Fin 1024), y = ix2 r e := ⟨y 0, y 1, eq_ix2 y⟩
  have hN : cfg0.N = 256 := N_0
  have ht := t.isLt
  have hr := r.isLt
  obtain ⟨n, hn⟩ : ∃ n : Fin 65536, n.val = t.val * 256 + r.val := ⟨⟨t.val * 256 + r.val, by omega⟩, rfl⟩
  have hb := Cert.KBlock.block_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t) r e
  refine hb.trans ?_
  obtain ⟨-, -, e0, e1⟩ := idx_tok t
  have he : ((cfg0.win 9).blk t).view.emb (ix2 r e) = ix2 n e := funext fun a => Fin.ext (by
    match a with
    | ⟨0, _⟩ => show win0_9.index t (0 : Fin 2) * 256 + 1 * r.val = n.val; rw [e0, hn]; omega
    | ⟨1, _⟩ => show win0_9.index t (1 : Fin 2) * 1024 + 1 * e.val = e.val; rw [e1]; omega)
  show _ = result m c (((cfg0.win 9).blk t).view.emb (ix2 r e))
  rw [he]
  have h0 : Cert.KBlock.row (iblk m c 0 t) r = fun k => m ((c : Thread nD τ).loc main_arg0) (ix2 n k) :=
    funext fun k => (blk_tok m c t r k n hn).trans (congrFun (V_main_arg0 m c) _)
  have h1 : Cert.KBlock.mat (iblk m c 1 t) = fun a b => m ((c : Thread nD τ).loc main_arg1) (ix2 b a) :=
    funext fun a => funext fun b => (blk_w1 m c t a b).trans (w1_apply m c a b)
  have h3 : Cert.KBlock.mat (iblk m c 3 t) = fun a b => m ((c : Thread nD τ).loc main_arg3) (ix2 b a) :=
    funext fun a => funext fun b => (blk_w3 m c t a b).trans (w3_apply m c a b)
  have h5 : Cert.KBlock.mat (iblk m c 5 t) = fun a b => m ((c : Thread nD τ).loc main_arg5) (ix2 b a) :=
    funext fun a => funext fun b => (blk_w5 m c t a b).trans (w5_apply m c a b)
  have h7 : Cert.KBlock.mat (iblk m c 7 t) = fun a b => m ((c : Thread nD τ).loc main_arg7) (ix2 b a) :=
    funext fun a => funext fun b => (blk_w7 m c t a b).trans (w7_apply m c a b)
  have h2 : Cert.KBlock.bia (iblk m c 2 t) = fun j => m ((c : Thread nD τ).loc main_arg2) (ix1 j) :=
    funext fun j => (blk_b2 m c t j).trans (congrFun (V_main_arg2 m c) _)
  have h4 : Cert.KBlock.bia (iblk m c 4 t) = fun j => m ((c : Thread nD τ).loc main_arg4) (ix1 j) :=
    funext fun j => (blk_b4 m c t j).trans (congrFun (V_main_arg4 m c) _)
  have h6 : Cert.KBlock.bia (iblk m c 6 t) = fun j => m ((c : Thread nD τ).loc main_arg6) (ix1 j) :=
    funext fun j => (blk_b6 m c t j).trans (congrFun (V_main_arg6 m c) _)
  have h8 : Cert.KBlock.bia (iblk m c 8 t) = fun j => m ((c : Thread nD τ).loc main_arg8) (ix1 j) :=
    funext fun j => (blk_b8 m c t j).trans (congrFun (V_main_arg8 m c) _)
  rw [h0, h1, h2, h3, h4, h5, h6, h7, h8]
  rfl

/-- An index of the array is in point `t`'s block iff each coordinate is in the block's range on its axis. -/
theorem mem_blk (t : Fin cfg0.N) (i : S65536x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v8).slice (win0_9.rect t)).set ↔ _
  rw [View.set_slice_whole, Rect.mem_set_unit]
  exact Iff.rfl

/-- Row `n` is in the block of point `n / 256`. -/
theorem cover (i : S65536x1024.Idx) : ∃ t : Fin cfg0.N, (cfg0.win 9).flush t = true ∧ i ∈ ((cfg0.win 9).blk t).view.set := by
  have hN : cfg0.N = 256 := N_0
  have h0 : (i 0).val < 65536 := (i 0).isLt
  have h1 : (i 1).val < 1024 := (i 1).isLt
  obtain ⟨t, ht⟩ : ∃ t : Fin cfg0.N, t.val = (i 0).val / 256 := ⟨⟨(i 0).val / 256, by omega⟩, rfl⟩
  refine ⟨t, flush0_9 t, ?_⟩
  rw [mem_blk]
  obtain ⟨-, -, e0, e1⟩ := idx_tok t
  intro a
  match a with
  | ⟨0, _⟩ =>
    show win0_9.index t (0 : Fin 2) * 256 ≤ (i 0).val ∧ (i 0).val < win0_9.index t (0 : Fin 2) * 256 + 256
    rw [e0, ht]; omega
  | ⟨1, _⟩ =>
    show win0_9.index t (1 : Fin 2) * 1024 ≤ (i 1).val ∧ (i 1).val < win0_9.index t (1 : Fin 2) * 1024 + 1024
    rw [e1]; omega

/-- The array after the run. -/
theorem final (c : Dev nD) : (dats m 0 c).arrAt 9 cfg0.N = result m c :=
  (dats m 0 c).arrAt_eq_of_cover 9 (result m c) (fun t _ => flushed_eq m c t) cover

/-- The run, read: the result array at its function of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KValue

end
-- ==== Proof.RefG.lean ====
/-
  The reference's result, index by index, is the token's function with the scale applied to the dot products. Each
  stage of the reference is read at an index from the stage before: the three projections, their rows cut into 16
  heads, the dot products of heads divided by 8, their maximum from -∞, the exponentials, their sum, the weights,
  the weighted value heads, the heads put side by side again, and the last projection.
-/
import proofs.«164140_j43044162240543_2_alg».proof.Proof.Gen.ReferenceIdeal.Read
import proofs.«164140_j43044162240543_2_alg».proof.Proof.Spec
import proofs.«164140_j43044162240543_2_alg».proof.Proof.LibKeepdims
import Idealize.ShloMosaic.PureOps.Reduce

noncomputable section

namespace Cert.RefG

open Cert.ReferenceIdeal Cert.ReferenceIdeal.Gen Cert.ReferenceIdeal.Read Idealize.ShloMosaic Idealize.ShloMosaic.ValueIdx Cert.Spec

local macro "idx1" : tactic => `(tactic| (funext t; apply Fin.ext; match t with | ⟨0, _⟩ => rfl))
local macro "idx2" : tactic => `(tactic| (funext t; apply Fin.ext; match t with | ⟨0, _⟩ => rfl | ⟨1, _⟩ => rfl))
local macro "idx3" : tactic => `(tactic| (funext t; apply Fin.ext; match t with | ⟨0, _⟩ => rfl | ⟨1, _⟩ => rfl | ⟨2, _⟩ => rfl))

variable (x0 : (⟨S65536x1024, .f32⟩ : BufTy).Contents (Elt Ideal))
  (x1 x3 x5 x7 : (⟨S1024x1024, .f32⟩ : BufTy).Contents (Elt Ideal))
  (x2 x4 x6 x8 : (⟨S1024, .f32⟩ : BufTy).Contents (Elt Ideal))

/-- Row `n` of the tokens. -/
abbrev row (n : Fin 65536) : Fin 1024 → EReal := fun i => x0 (ix2 n i)
/-- A weight matrix with the input index first. -/
abbrev wT (w : (⟨S1024x1024, .f32⟩ : BufTy).Contents (Elt Ideal)) : Fin 1024 → Fin 1024 → EReal := fun i j => w (ix2 j i)
/-- A bias. -/
abbrev bia (b : (⟨S1024, .f32⟩ : BufTy).Contents (Elt Ideal)) : Fin 1024 → EReal := fun j => b (ix1 j)

/-! ## The three projections -/

theorem projQ (n : Fin 65536) (j : Fin 1024) :
    val_main_v4 (F := Ideal) x0 x1 x2 (ix2 n j) = proj (row x0 n) (wT x1) (bia x2) j := by
  rw [val_main_v4_apply, val_main_v1_apply, val_main_v3_apply, val_main_v2_apply]
  unfold proj
  refine congrArg₂ (· + ·) (Finset.sum_congr rfl fun k _ => ?_) (congrArg x2 (by idx1))
  rw [val_main_v0_apply, show lidx_main_v1 (ix2 n j) k = ix2 n k from by idx2,
    show idx_main_v0 (ridx_main_v1 (ix2 n j) k) = ix2 j k from by idx2]

theorem projK (n : Fin 65536) (j : Fin 1024) :
    val_main_v10 (F := Ideal) x0 x3 x4 (ix2 n j) = proj (row x0 n) (wT x3) (bia x4) j := by
  rw [val_main_v10_apply, val_main_v7_apply, val_main_v9_apply, val_main_v8_apply]
  unfold proj
  refine congrArg₂ (· + ·) (Finset.sum_congr rfl fun k _ => ?_) (congrArg x4 (by idx1))
  rw [val_main_v6_apply, show lidx_main_v7 (ix2 n j) k = ix2 n k from by idx2,
    show idx_main_v6 (ridx_main_v7 (ix2 n j) k) = ix2 j k from by idx2]

theorem projV (n : Fin 65536) (j : Fin 1024) :
    val_main_v16 (F := Ideal) x0 x5 x6 (ix2 n j) = proj (row x0 n) (wT x5) (bia x6) j := by
  rw [val_main_v16_apply, val_main_v13_apply, val_main_v15_apply, val_main_v14_apply]
  unfold proj
  refine congrArg₂ (· + ·) (Finset.sum_congr rfl fun k _ => ?_) (congrArg x6 (by idx1))
  rw [val_main_v12_apply, show lidx_main_v13 (ix2 n j) k = ix2 n k from by idx2,
    show idx_main_v12 (ridx_main_v13 (ix2 n j) k) = ix2 j k from by idx2]

/-! ## Rows cut into heads -/

theorem cut_idx (n : Fin 65536) (a : Fin 16) (d : Fin 64) (i : S65536x1024.Idx)
    (h0 : (i 0).val = ((n.val * 16 + a.val) * 64 + d.val) / 1024) (h1 : (i 1).val = ((n.val * 16 + a.val) * 64 + d.val) % 1024) :
    i = ix2 n (col a d) := by
  funext t; apply Fin.ext
  have := a.isLt; have := d.isLt
  match t with
  | ⟨0, _⟩ => show (i 0).val = n.val; omega
  | ⟨1, _⟩ => show (i 1).val = a.val * 64 + d.val; omega

theorem headsQ (n : Fin 65536) (a : Fin 16) (d : Fin 64) :
    val_main_v5 (F := Ideal) x0 x1 x2 (ix3 n a d) = proj (row x0 n) (wT x1) (bia x2) (col a d) := by
  rw [val_main_v5_apply, cut_idx n a d (idx_main_v5 (ix3 n a d)) rfl rfl, projQ]

theorem headsK (n : Fin 65536) (a : Fin 16) (d : Fin 64) :
    val_main_v11 (F := Ideal) x0 x3 x4 (ix3 n a d) = proj (row x0 n) (wT x3) (bia x4) (col a d) := by
  rw [val_main_v11_apply, cut_idx n a d (idx_main_v11 (ix3 n a d)) rfl rfl, projK]

theorem headsV (n : Fin 65536) (a : Fin 16) (d : Fin 64) :
    val_main_v17 (F := Ideal) x0 x5 x6 (ix3 n a d) = proj (row x0 n) (wT x5) (bia x6) (col a d) := by
  rw [val_main_v17_apply, cut_idx n a d (idx_main_v17 (ix3 n a d)) rfl rfl, projV]

/-! ## Scores, their maximum, the exponentials, their sum, the weights -/

/-- The token's scores. -/
abbrev sc (n : Fin 65536) : Fin 16 → Fin 16 → EReal :=
  scoreR (proj (row x0 n) (wT x1) (bia x2)) (proj (row x0 n) (wT x3) (bia x4))

theorem scores (n : Fin 65536) (a b : Fin 16) :
    val_main_v20 (F := Ideal) x0 x1 x2 x3 x4 (ix3 n a b) = sc x0 x1 x3 x2 x4 n a b := by
  rw [val_main_v20_apply, val_main_v18_apply, val_main_v19_apply, val_main_cst_apply]
  show Ideal.div (∑ k : Fin 64, _) _ = Ideal.div (∑ k : Fin 64, _) _
  refine congrArg (fun s => Ideal.div s _) (Finset.sum_congr rfl fun k _ => ?_)
  rw [show lidx_main_v18 (ix3 n a b) k = ix3 n a k from by idx3, show ridx_main_v18 (ix3 n a b) k = ix3 n b k from by idx3,
    headsQ, headsK]

/-- The maximum of a query head's scores, from -∞. -/
abbrev mx (s : Fin 16 → EReal) : EReal :=
  max (Ideal.ofBits .f32 0xFF800000#32) ((Finset.univ : Finset (Fin 16)).fold max (Ideal.ofBits .f32 0xFF800000#32) s)

theorem maxi (n : Fin 65536) (a : Fin 16) :
    val_main_v23 (F := Ideal) x0 x1 x2 x3 x4 (ix2 n a) = mx (sc x0 x1 x3 x2 x4 n a) := by
  rw [val_main_v23_apply, val_main_v22_apply, val_main_cst_1_apply]
  unfold val_main_v21
  rw [Host.reduce_eq_fold_single FloatOps.maximumf _ _ reducesTo_S65536x16x16_S65536x16_d2 (by decide) h_S_]
  have hf : (val_main_v20 (F := Ideal) x0 x1 x2 x3 x4 ∘ (by decide : S65536x16x16.Reduces [2] S65536x16).lift (ix2 n a))
      = sc x0 x1 x3 x2 x4 n a := funext fun k => by
    show val_main_v20 (F := Ideal) x0 x1 x2 x3 x4 _ = _
    rw [Cert.LibKeepdims.lift_last3]
    exact scores x0 x1 x3 x2 x4 n a _
  rw [hf]
  rfl

theorem expo (n : Fin 65536) (a b : Fin 16) :
    val_main_v27 (F := Ideal) x0 x1 x2 x3 x4 (ix3 n a b)
      = Ideal.exp (sc x0 x1 x3 x2 x4 n a b - mx (sc x0 x1 x3 x2 x4 n a)) := by
  rw [val_main_v27_apply, val_main_v26_apply, val_main_v25_apply, val_main_v24_apply, scores,
    show idx_main_v24 (idx_main_v25 (ix3 n a b)) = ix2 n a from by idx2, maxi]
  rfl

theorem total (n : Fin 65536) (a : Fin 16) :
    val_main_v28 (F := Ideal) x0 x1 x2 x3 x4 (ix2 n a)
      = ∑ b : Fin 16, Ideal.exp (sc x0 x1 x3 x2 x4 n a b - mx (sc x0 x1 x3 x2 x4 n a)) := by
  rw [val_main_v28_apply]
  show Ideal.ofBits .f32 0x00000000#32 + _ = _
  rw [Ideal.ofBits_zero_f32, zero_add]
  refine Finset.sum_congr rfl fun k _ => ?_
  rw [show idx_main_v28 (ix2 n a) k = ix3 n a k from by idx3, expo]

theorem weight (n : Fin 65536) (a b : Fin 16) :
    val_main_v31 (F := Ideal) x0 x1 x2 x3 x4 (ix3 n a b)
      = Ideal.div (Ideal.exp (sc x0 x1 x3 x2 x4 n a b - mx (sc x0 x1 x3 x2 x4 n a)))
          (∑ b' : Fin 16, Ideal.exp (sc x0 x1 x3 x2 x4 n a b' - mx (sc x0 x1 x3 x2 x4 n a))) := by
  rw [val_main_v31_apply, val_main_v30_apply, val_main_v29_apply, expo,
    show idx_main_v29 (idx_main_v30 (ix3 n a b)) = ix2 n a from by idx2, total]
  rfl

/-! ## The attended row and the last projection -/

theorem attended (n : Fin 65536) (j : Fin 1024) :
    val_main_v33 (F := Ideal) x0 x1 x2 x3 x4 x5 x6 (ix2 n j)
      = att (sc x0 x1 x3 x2 x4 n) (proj (row x0 n) (wT x5) (bia x6)) j := by
  have hj := j.isLt
  rw [val_main_v33_apply, val_main_v32_apply]
  unfold att soft
  refine Finset.sum_congr rfl fun k _ => ?_
  have e1 : lidx_main_v32 (idx_main_v33 (ix2 n j)) k = ix3 n (hd j) k := by
    funext t; apply Fin.ext
    match t with
    | ⟨0, _⟩ => show (n.val * 1024 + j.val) / 1024 = n.val; omega
    | ⟨1, _⟩ => show (n.val * 1024 + j.val) / 64 % 16 = j.val / 64; omega
    | ⟨2, _⟩ => rfl
  have e2 : ridx_main_v32 (idx_main_v33 (ix2 n j)) k = ix3 n k (lo j) := by
    funext t; apply Fin.ext
    match t with
    | ⟨0, _⟩ => show (n.val * 1024 + j.val) / 1024 = n.val; omega
    | ⟨1, _⟩ => rfl
    | ⟨2, _⟩ => show (n.val * 1024 + j.val) % 64 = j.val % 64; omega
  rw [e1, e2, weight, headsV]

/-- The reference's result at token `n` and column `e`. -/
theorem result (n : Fin 65536) (e : Fin 1024) :
    val_main_v38 (F := Ideal) x0 x1 x2 x3 x4 x5 x6 x7 x8 (ix2 n e)
      = tokR (row x0 n) (wT x1) (bia x2) (wT x3) (bia x4) (wT x5) (bia x6) (wT x7) (bia x8) e := by
  rw [val_main_v38_apply, val_main_v35_apply, val_main_v37_apply, val_main_v36_apply]
  unfold tokR
  show (∑ k : Fin 1024, _) + _ = proj _ _ _ _
  unfold proj
  refine congrArg₂ (· + ·) (Finset.sum_congr rfl fun k _ => ?_) (congrArg x8 (by idx1))
  rw [val_main_v34_apply, show lidx_main_v35 (ix2 n e) k = ix2 n k from by idx2,
    show idx_main_v34 (ridx_main_v35 (ix2 n e) k) = ix2 e k from by idx2, attended]
  rfl

end Cert.RefG

end
-- ==== Proof.RefWhole.lean ====
/-
  The reference's result array is the result array's function of its arguments: entry by entry it is the token's
  function with the scale on the dot products, which is the token's function with the scale on the queries.
-/
import proofs.«164140_j43044162240543_2_alg».proof.Proof.RefG
import proofs.«164140_j43044162240543_2_alg».proof.Proof.Whole

noncomputable section

namespace Cert.RefG

open Cert.ReferenceIdeal Cert.ReferenceIdeal.Gen Cert.ReferenceIdeal.Read Idealize.ShloMosaic Idealize.ShloMosaic.ValueIdx Cert.Spec

theorem result_eq (x0 : (⟨S65536x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) :
    val_main_v38 (F := Ideal) x0 x1 x2 x3 x4 x5 x6 x7 x8 = Cert.Whole.Gfin x0 x1 x2 x3 x4 x5 x6 x7 x8 := by
  funext i
  obtain ⟨n, e, rfl⟩ : ∃ (n : Fin 65536) (e : Fin 1024), i = ix2 n e := ⟨i 0, i 1, eq_ix2 i⟩
  rw [result, ← tokK_eq_tokR]
  rfl

end Cert.RefG

end
-- ==== Proof.lean ====
/-
  The kernel computes, for each of 65536 tokens, the projections Q, K, V of the token's row of H, scales Q by 1/8,
  and for each of the 16 query heads takes the 16 dot products with the key heads, their softmax, and the
  softmax-weighted sum of the value heads; the 16 results side by side are projected by Wo. The reference does the
  same with the 1/8 applied to the dot products as a division by 8. Over the extended reals the two agree because a
  product with a nonnegative real constant distributes over a sum whatever the terms, so no argument needs to be
  finite for the equality. Both programs' result arrays are one function of the nine arguments (`Whole.Gfin`): the
  kernel's block by block over its 256 grid points, the reference's stage by stage.
-/
import proofs.«164140_j43044162240543_2_alg».proof.Defs
import proofs.«164140_j43044162240543_2_alg».proof.Proof.Gen.Kernel
import proofs.«164140_j43044162240543_2_alg».proof.Proof.Gen.Kernel.Skeleton
import proofs.«164140_j43044162240543_2_alg».proof.Proof.Gen.Kernel.Launch
import proofs.«164140_j43044162240543_2_alg».proof.Proof.Gen.Kernel.Points
import proofs.«164140_j43044162240543_2_alg».proof.Proof.Gen.Kernel.Frame
import proofs.«164140_j43044162240543_2_alg».proof.Proof.Gen.KernelIdeal
import proofs.«164140_j43044162240543_2_alg».proof.Proof.Gen.KernelIdeal.Skeleton
import proofs.«164140_j43044162240543_2_alg».proof.Proof.Gen.KernelIdeal.Launch
import proofs.«164140_j43044162240543_2_alg».proof.Proof.Gen.KernelIdeal.Points
import proofs.«164140_j43044162240543_2_alg».proof.Proof.Gen.KernelIdeal.Frame
import proofs.«164140_j43044162240543_2_alg».proof.Proof.Gen.KernelIdeal.Value
import proofs.«164140_j43044162240543_2_alg».proof.Proof.Gen.ReferenceIdeal
import proofs.«164140_j43044162240543_2_alg».proof.Proof.Gen.ReferenceIdeal.Run
import proofs.«164140_j43044162240543_2_alg».proof.Proof.Gen.ReferenceIdeal.Read
import proofs.«164140_j43044162240543_2_alg».proof.Proof.Gen.Pre_finite_inputs
import proofs.«164140_j43044162240543_2_alg».proof.Proof.KValue
import proofs.«164140_j43044162240543_2_alg».proof.Proof.RefWhole
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the nine arguments both programs end with the result array at the same function of
    them. -/
theorem algebraic : Cert.algebraic_KernelIdeal_ReferenceIdeal := by
  intro m ρ m' ρ' _ hagree
  refine ⟨fun c => Cert.KValue.result m c, Cert.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v38_eq, Cert.RefG.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
